-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S256x128x32 : Shape := ⟨3, ![256, 128, 32]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S256x128x32 : S_.BroadcastsInDim S256x128x32 (![] : Fin 0 → Fin S256x128x32.rank)
  reducesTo_S256x128x32_S_d0_1_2 : S256x128x32.ReducesTo [0, 1, 2] S_

variable [Facts]

def fn {F : FTy → Type} [FloatOps F] (main_arg0 : FVec F S2048x128 .f32) (main_arg1 : FVec F S256x128x32 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S256x128x32 .f32 := Host.absf main_arg1
  let main_cst_0 : FVec F S_ .f32 := constant S_ .f32 0x7F800000#32
  let main_v5 : FVec F S256x128x32 .f32 := broadcastInDim S256x128x32 ![] bcast_S_S256x128x32 main_cst_0
  let main_v6 : IVec S256x128x32 1 := cmpf .olt main_v4 main_v5
  let main_c_1 : IVec S_ 1 := constantI S_ 1 1#1
  let main_v7 : IVec S_ 1 := (fun x v => Host.reduce IntOp.andi x v reducesTo_S256x128x32_S_d0_1_2 h_S_) main_v6 main_c_1
  let main_v8 : IVec S_ 1 := andi main_v3 main_v7
  main_v8
-- ==== Kernel.lean ====
abbrev S2048x128 : Shape := ⟨2, ![2048, 128]⟩
abbrev S256x128x32 : Shape := ⟨3, ![256, 128, 32]⟩
abbrev S32x128x256 : Shape := ⟨3, ![32, 128, 256]⟩
abbrev S4096x256 : Shape := ⟨2, ![4096, 256]⟩
abbrev S2048x256 : Shape := ⟨2, ![2048, 256]⟩
abbrev S512x128 : Shape := ⟨2, ![512, 128]⟩
abbrev S512x256 : Shape := ⟨2, ![512, 256]⟩
abbrev S512x1x128 : Shape := ⟨3, ![512, 1, 128]⟩
abbrev S32x128 : Shape := ⟨2, ![32, 128]⟩
abbrev S1x32x128 : Shape := ⟨3, ![1, 32, 128]⟩
abbrev S512x32x128 : Shape := ⟨3, ![512, 32, 128]⟩
abbrev S512x4096 : Shape := ⟨2, ![512, 4096]⟩

abbrev nBuf : Space → Nat
  | .hbm => 6
  | .vmem => 5
  | .smem => 0
  | _ => 0

abbrev bufTy : (tb : Table) → Fin (tcTables nBuf tb) → BufTy
  | .hbm, ⟨0, _⟩ => ⟨S2048x128, .f32⟩
  | .hbm, ⟨1, _⟩ => ⟨S256x128x32, .f32⟩
  | .hbm, ⟨2, _⟩ => ⟨S32x128x256, .f32⟩
  | .hbm, ⟨3, _⟩ => ⟨S4096x256, .f32⟩
  | .hbm, ⟨4, _⟩ => ⟨S4096x256, .bf16⟩
  | .hbm, ⟨5, _⟩ => ⟨S2048x256, .f32⟩
  | .local _ .vmem, ⟨0, _⟩ => ⟨S512x128, .f32⟩
  | .local _ .vmem, ⟨1, _⟩ => ⟨S512x128, .f32⟩
  | .local _ .vmem, ⟨2, _⟩ => ⟨S4096x256, .bf16⟩
  | .local _ .vmem, ⟨3, _⟩ => ⟨S512x256, .f32⟩
  | .local _ .vmem, ⟨4, _⟩ => ⟨S512x256, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S256x128x32_S32x128x256_2_1_0 : S256x128x32.Transposes [2, 1, 0] S32x128x256
  shapeCasts_S32x128x256_S4096x256 : S32x128x256.ShapeCasts S4096x256
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x1x128 : S512x128.ShapeCasts S512x1x128
  iota_S32x128_d0_w32 : S32x128.Iotas .tc 32 [0]
  shapeCasts_S32x128_S1x32x128 : S32x128.ShapeCasts S1x32x128
  broadcasts_S1x32x128_S512x32x128 : S1x32x128.Broadcasts S512x32x128
  broadcasts_S512x1x128_S512x32x128 : S512x1x128.Broadcasts S512x32x128
  shapeCasts_S512x1x128_S512x1x128 : S512x1x128.ShapeCasts S512x1x128
  shapeCasts_S512x32x128_S512x4096 : S512x32x128.ShapeCasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S512x256_S512x256_0_0 : ∀ a, (![0, 0] : Fin 2 → Nat) a + S512x256.size a ≤ S512x256.size a
  h_S512x256 : 0 < S512x256.numel
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S2048x128.size a
  hwx0_0 : ∀ i : grid0.Coords, EltTy.bits .f32 = 32 ∨ (Rect.block (s := S2048x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S2048x256.size a
  hwx0_2 : ∀ i : grid0.Coords, EltTy.bits .f32 = 32 ∨ (Rect.block (s := S2048x256) S512x256.size (cc0_transform_2 i) (hinb0_2 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x128 : Shape := ⟨2, ![2048, 128]⟩
abbrev S256x128x32 : Shape := ⟨3, ![256, 128, 32]⟩
abbrev S2048x1x128 : Shape := ⟨3, ![2048, 1, 128]⟩
abbrev S_ : Shape := ⟨0, ![]⟩
abbrev S2048x256x128 : Shape := ⟨3, ![2048, 256, 128]⟩
abbrev S256 : Shape := ⟨1, ![256]⟩
abbrev S1x256x1 : Shape := ⟨3, ![1, 256, 1]⟩
abbrev S128 : Shape := ⟨1, ![128]⟩
abbrev S1x1x128 : Shape := ⟨3, ![1, 1, 128]⟩
abbrev S2048x256x128x1 : Shape := ⟨4, ![2048, 256, 128, 1]⟩
abbrev S2048x256x128x3 : Shape := ⟨4, ![2048, 256, 128, 3]⟩
abbrev S2048x256 : Shape := ⟨2, ![2048, 256]⟩

abbrev nBuf : Space → Nat
  | .hbm => 96
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S256x128x32, .f32⟩
  | .hbm, ⟨2, _⟩ => ⟨S2048x1x128, .f32⟩
  | .hbm, ⟨3, _⟩ => ⟨S_, .f32⟩
  | .hbm, ⟨4, _⟩ => ⟨S2048x1x128, .f32⟩
  | .hbm, ⟨5, _⟩ => ⟨S2048x1x128, .f32⟩
  | .hbm, ⟨6, _⟩ => ⟨S_, .f32⟩
  | .hbm, ⟨7, _⟩ => ⟨S2048x1x128, .f32⟩
  | .hbm, ⟨8, _⟩ => ⟨S2048x1x128, .f32⟩
  | .hbm, ⟨9, _⟩ => ⟨S_, .f32⟩
  | .hbm, ⟨10, _⟩ => ⟨S2048x1x128, .f32⟩
  | .hbm, ⟨11, _⟩ => ⟨S2048x1x128, .f32⟩
  | .hbm, ⟨12, _⟩ => ⟨S2048x256x128, .f32⟩
  | .hbm, ⟨13, _⟩ => ⟨S2048x256x128, .f32⟩
  | .hbm, ⟨14, _⟩ => ⟨S2048x256x128, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S2048x256x128, .i32⟩
  | .hbm, ⟨19, _⟩ => ⟨S2048x256x128, .i32⟩
  | .hbm, ⟨20, _⟩ => ⟨S_, .i32⟩
  | .hbm, ⟨21, _⟩ => ⟨S2048x256x128, .i32⟩
  | .hbm, ⟨22, _⟩ => ⟨S2048x256x128, .i32⟩
  | .hbm, ⟨23, _⟩ => ⟨S_, .i32⟩
  | .hbm, ⟨24, _⟩ => ⟨S2048x256x128, .i32⟩
  | .hbm, ⟨25, _⟩ => ⟨S2048x256x128, .i32⟩
  | .hbm, ⟨26, _⟩ => ⟨S256, .i32⟩
  | .hbm, ⟨27, _⟩ => ⟨S1x256x1, .i32⟩
  | .hbm, ⟨28, _⟩ => ⟨S128, .i32⟩
  | .hbm, ⟨29, _⟩ => ⟨S1x1x128, .i32⟩
  | .hbm, ⟨30, _⟩ => ⟨S_, .i32⟩
  | .hbm, ⟨31, _⟩ => ⟨S1x256x1, .i32⟩
  | .hbm, ⟨32, _⟩ => ⟨S1x256x1, .i1⟩
  | .hbm, ⟨33, _⟩ => ⟨S_, .i32⟩
  | .hbm, ⟨34, _⟩ => ⟨S1x256x1, .i32⟩
  | .hbm, ⟨35, _⟩ => ⟨S1x256x1, .i32⟩
  | .hbm, ⟨36, _⟩ => ⟨S1x256x1, .i32⟩
  | .hbm, ⟨37, _⟩ => ⟨S_, .i32⟩
  | .hbm, ⟨38, _⟩ => ⟨S1x1x128, .i32⟩
  | .hbm, ⟨39, _⟩ => ⟨S1x1x128, .i1⟩
  | .hbm, ⟨40, _⟩ => ⟨S_, .i32⟩
  | .hbm, ⟨41, _⟩ => ⟨S1x1x128, .i32⟩
  | .hbm, ⟨42, _⟩ => ⟨S1x1x128, .i32⟩
  | .hbm, ⟨43, _⟩ => ⟨S1x1x128, .i32⟩
  | .hbm, ⟨44, _⟩ => ⟨S_, .i32⟩
  | .hbm, ⟨45, _⟩ => ⟨S2048x256x128, .i32⟩
  | .hbm, ⟨46, _⟩ => ⟨S2048x256x128, .i1⟩
  | .hbm, ⟨47, _⟩ => ⟨S_, .i32⟩
  | .hbm, ⟨48, _⟩ => ⟨S2048x256x128, .i32⟩
  | .hbm, ⟨49, _⟩ => ⟨S2048x256x128, .i32⟩
  | .hbm, ⟨50, _⟩ => ⟨S2048x256x128, .i32⟩
  | .hbm, ⟨51, _⟩ => ⟨S2048x256x128, .i32⟩
  | .hbm, ⟨52, _⟩ => ⟨S2048x256x128, .i32⟩
  | .hbm, ⟨53, _⟩ => ⟨S2048x256x128x1, .i32⟩
  | .hbm, ⟨54, _⟩ => ⟨S2048x256x128x1, .i32⟩
  | .hbm, ⟨55, _⟩ => ⟨S2048x256x128x1, .i32⟩
  | .hbm, ⟨56, _⟩ => ⟨S2048x256x128x3, .i32⟩
  | .hbm, ⟨57, _⟩ => ⟨S2048x256x128, .f32⟩
  | .hbm, ⟨58, _⟩ => ⟨S_, .i32⟩
  | .hbm, ⟨59, _⟩ => ⟨S1x256x1, .i32⟩
  | .hbm, ⟨60, _⟩ => ⟨S1x256x1, .i1⟩
  | .hbm, ⟨61, _⟩ => ⟨S_, .i32⟩
  | .hbm, ⟨62, _⟩ => ⟨S1x256x1, .i32⟩
  | .hbm, ⟨63, _⟩ => ⟨S1x256x1, .i32⟩
  | .hbm, ⟨64, _⟩ => ⟨S1x256x1, .i32⟩
  | .hbm, ⟨65, _⟩ => ⟨S_, .i32⟩
  | .hbm, ⟨66, _⟩ => ⟨S1x1x128, .i32⟩
  | .hbm, ⟨67, _⟩ => ⟨S1x1x128, .i1⟩
  | .hbm, ⟨68, _⟩ => ⟨S_, .i32⟩
  | .hbm, ⟨69, _⟩ => ⟨S1x1x128, .i32⟩
  | .hbm, ⟨70, _⟩ => ⟨S1x1x128, .i32⟩
  | .hbm, ⟨71, _⟩ => ⟨S1x1x128, .i32⟩
  | .hbm, ⟨72, _⟩ => ⟨S_, .i32⟩
  | .hbm, ⟨73, _⟩ => ⟨S2048x256x128, .i32⟩
  | .hbm, ⟨74, _⟩ => ⟨S2048x256x128, .i1⟩
  | .hbm, ⟨75, _⟩ => ⟨S_, .i32⟩
  | .hbm, ⟨76, _⟩ => ⟨S2048x256x128, .i32⟩
  | .hbm, ⟨77, _⟩ => ⟨S2048x256x128, .i32⟩
  | .hbm, ⟨78, _⟩ => ⟨S2048x256x128, .i32⟩
  | .hbm, ⟨79, _⟩ => ⟨S2048x256x128, .i32⟩
  | .hbm, ⟨80, _⟩ => ⟨S2048x256x128, .i32⟩
  | .hbm, ⟨81, _⟩ => ⟨S2048x256x128x1, .i32⟩
  | .hbm, ⟨82, _⟩ => ⟨S2048x256x128x1, .i32⟩
  | .hbm, ⟨83, _⟩ => ⟨S2048x256x128x1, .i32⟩
  | .hbm, ⟨84, _⟩ => ⟨S2048x256x128x3, .i32⟩
  | .hbm, ⟨85, _⟩ => ⟨S2048x256x128, .f32⟩
  | .hbm, ⟨86, _⟩ => ⟨S2048x256x128, .f32⟩
  | .hbm, ⟨87, _⟩ => ⟨S2048x256x128, .f32⟩
  | .hbm, ⟨88, _⟩ => ⟨S_, .f32⟩
  | .hbm, ⟨89, _⟩ => ⟨S2048x256x128, .f32⟩
  | .hbm, ⟨90, _⟩ => ⟨S2048x256x128, .f32⟩
  | .hbm, ⟨91, _⟩ => ⟨S2048x256x128, .f32⟩
  | .hbm, ⟨92, _⟩ => ⟨S2048x256x128, .f32⟩
  | .hbm, ⟨93, _⟩ => ⟨S2048x256x128, .f32⟩
  | .hbm, ⟨94, _⟩ => ⟨S_, .f32⟩
  | .hbm, ⟨95, _⟩ => ⟨S2048x256, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_c_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_8 : Ref sig .tc := ⟨.hbm, 44, rfl⟩
abbrev main_v27 : Ref sig .tc := ⟨.hbm, 45, rfl⟩
abbrev main_v28 : Ref sig .tc := ⟨.hbm, 46, rfl⟩
abbrev main_c_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_10 : Ref sig .tc := ⟨.hbm, 58, rfl⟩
abbrev main_v39 : Ref sig .tc := ⟨.hbm, 59, rfl⟩
abbrev main_v40 : Ref sig .tc := ⟨.hbm, 60, rfl⟩
abbrev main_c_11 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_12 : Ref sig .tc := ⟨.hbm, 65, rfl⟩
abbrev main_v44 : Ref sig .tc := ⟨.hbm, 66, rfl⟩
abbrev main_v45 : Ref sig .tc := ⟨.hbm, 67, rfl⟩
abbrev main_c_13 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_14 : Ref sig .tc := ⟨.hbm, 72, rfl⟩
abbrev main_v49 : Ref sig .tc := ⟨.hbm, 73, rfl⟩
abbrev main_v50 : Ref sig .tc := ⟨.hbm, 74, rfl⟩
abbrev main_c_15 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_16 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_17 : Ref sig .tc := ⟨.hbm, 94, rfl⟩
abbrev main_v68 : Ref sig .tc := ⟨.hbm, 95, rfl⟩

abbrev nD : Nat := 1
abbrev τ : Topo := Topo.v7x

variable {F : FTy → Type} [FloatOps F]

class Facts₀ : Prop where
  bcast_S2048x128_S2048x1x128_0_2 : S2048x128.BroadcastsInDim S2048x1x128 (![0, 2] : Fin 2 → Fin S2048x1x128.rank)
  bcast_S_S2048x1x128 : S_.BroadcastsInDim S2048x1x128 (![] : Fin 0 → Fin S2048x1x128.rank)
  bcast_S2048x1x128_S2048x256x128_0_1_2 : S2048x1x128.BroadcastsInDim S2048x256x128 (![0, 1, 2] : Fin 3 → Fin S2048x256x128.rank)
  bcast_S_S2048x256x128 : S_.BroadcastsInDim S2048x256x128 (![] : Fin 0 → Fin S2048x256x128.rank)
  bcast_S256_S1x256x1_1 : S256.BroadcastsInDim S1x256x1 (![1] : Fin 1 → Fin S1x256x1.rank)
  bcast_S128_S1x1x128_2 : S128.BroadcastsInDim S1x1x128 (![2] : Fin 1 → Fin S1x1x128.rank)
  bcast_S_S1x256x1 : S_.BroadcastsInDim S1x256x1 (![] : Fin 0 → Fin S1x256x1.rank)
  bcast_S_S1x1x128 : S_.BroadcastsInDim S1x1x128 (![] : Fin 0 → Fin S1x1x128.rank)
  bcast_S1x256x1_S2048x256x128_0_1_2 : S1x256x1.BroadcastsInDim S2048x256x128 (![0, 1, 2] : Fin 3 → Fin S2048x256x128.rank)
  bcast_S1x1x128_S2048x256x128_0_1_2 : S1x1x128.BroadcastsInDim S2048x256x128 (![0, 1, 2] : Fin 3 → Fin S2048x256x128.rank)
  bcast_S2048x256x128_S2048x256x128x1_0_1_2 : S2048x256x128.BroadcastsInDim S2048x256x128x1 (![0, 1, 2] : Fin 3 → Fin S2048x256x128x1.rank)
  concatenates_S2048x256x128x1_S2048x256x128x1_S2048x256x128x1_S2048x256x128x3_d3 : Shape.Concatenates [S2048x256x128x1, S2048x256x128x1, S2048x256x128x1] S2048x256x128x3 3
  reducesTo_S2048x256x128_S2048x256_d2 : S2048x256x128.ReducesTo [2] S2048x256
  h_S_ : 0 < S_.numel
  gather_S256x128x32_S2048x256x128x3_S2048x256x128_n_012_n_n_012_3_111_wf : GatherDims.WF S256x128x32 S2048x256x128x3 S2048x256x128 [] [0, 1, 2] [] [0, 1, 2] [] 3 ![1, 1, 1]

variable [Facts₀]

def gather_S256x128x32_S2048x256x128x3_S2048x256x128_n_012_n_n_012_3_111 : GatherDims S256x128x32 S2048x256x128x3 S2048x256x128 where
  offsetDims := []
  collapsedSliceDims := [0, 1, 2]
  operandBatchingDims := []
  startIndicesBatchingDims := []
  startIndexMap := [0, 1, 2]
  indexVectorDim := 3
  sliceSizes := ![1, 1, 1]
  wf := gather_S256x128x32_S2048x256x128x3_S2048x256x128_n_012_n_n_012_3_111_wf

class Facts : Prop extends Facts₀ where

variable [Facts]
-- ==== Proof.Spline.lean ====
/-
  A piecewise-linear spline layer, sample by sample.

  A sample `X` is placed on a grid of 32 knots over [-1, 1]: its position is `p = (X + 1) · 31/2`, its lower
  knot `n = clip(⌊p⌋, 0, 30)` and its offset from that knot `t = p − n`. One table row `f : Fin 32 → EReal` of knot
  coefficients is then interpolated as `(1 − t) · f n + t · f (n + 1)`, and an output entry is the sum of these
  interpolations over the 128 input features.

  Two computations of this are met here, each written with the float words it spells: one multiplies the sample's
  offset by 15.5, clips the floor in floating point and converts it to an integer afterwards, and weighs ALL 32
  coefficients of a row by a vector that is `1 − t` at `n`, `t` at `n + 1` and zero elsewhere; the other divides by 2
  and multiplies by 31, converts the floor to a 32-bit integer first (a conversion that saturates) and clips the
  integer, and fetches the two coefficients. On a real sample both are the interpolation above.
-/
import Idealize.ShloMosaic.PureOps.Ideal
import Idealize.ShloMosaic.Lib.ValueIdx

noncomputable section

open scoped BigOperators

namespace Cert.Spline

open Idealize.ShloMosaic Idealize.ShloMosaic.ValueIdx

/-! ## The interpolation over the reals -/

/-- The position of a sample on the knot grid: `(X + 1) · 31/2`. -/
def posR (X : ℝ) : ℝ := (X + 1) * (31 / 2)

/-- The lower knot: the floor of the position, clipped to `[0, 30]`. -/
def knot (X : ℝ) : ℕ := (max 0 (min 30 ⌊posR X⌋)).toNat

theorem knot_le (X : ℝ) : knot X ≤ 30 := by
  unfold knot
  omega

/-- The offset of the position from the lower knot. -/
def frac (X : ℝ) : ℝ := posR X - (knot X : ℝ)

/-- The lower knot as an index of a coefficient row. -/
def lo (X : ℝ) : Fin 32 := ⟨knot X, by have := knot_le X; omega⟩
/-- The upper knot as an index of a coefficient row. -/
def hi (X : ℝ) : Fin 32 := ⟨knot X + 1, by have := knot_le X; omega⟩

/-- One coefficient row interpolated at a sample. -/
def term (X : ℝ) (f : Fin 32 → EReal) : EReal :=
  ((1 - frac X : ℝ) : EReal) * f (lo X) + ((frac X : ℝ) : EReal) * f (hi X)

/-- Samples `[2048, 128]`, coefficients `[256, 128, 32]`, outputs `[2048, 256]`. -/
abbrev SX : Shape := ⟨2, ![2048, 128]⟩
abbrev SC : Shape := ⟨3, ![256, 128, 32]⟩
abbrev SO : Shape := ⟨2, ![2048, 256]⟩

/-- Output entry `(b, o)`: the sum over the features `i` of row `(o, i)` interpolated at sample `(b, i)`. -/
def entry (x : SX.Idx → EReal) (c : SC.Idx → EReal) (b : Fin 2048) (o : Fin 256) : EReal :=
  ∑ i : Fin 128, term (x (ix2 b i)).toReal (fun k => c (ix3 o i k))

/-- The layer: every output entry. -/
def G (x : SX.Idx → EReal) (c : SC.Idx → EReal) : SO.Idx → EReal :=
  fun j => entry x c (j 0) (j 1)

theorem G_ix2 (x : SX.Idx → EReal) (c : SC.Idx → EReal) (b : Fin 2048) (o : Fin 256) :
    G x c (ix2 b o) = entry x c b o := rfl

/-! ## The float words -/

theorem word_neg_one : Ideal.ofBits .f32 0xBF800000#32 = ((-1 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_zero : Ideal.ofBits .f32 0x00000000#32 = ((0 : ℝ) : EReal) := by
  simp [Ideal.ofBits, Ideal.ieee]
theorem word_two : Ideal.ofBits .f32 0x40000000#32 = ((2 : ℝ) : EReal) := by
  simp [Ideal.ofBits, Ideal.ieee, -EReal.coe_mul]; norm_num
theorem word_15_5 : Ideal.ofBits .f32 0x41780000#32 = ((31 / 2 : ℝ) : EReal) := by
  simp [Ideal.ofBits, Ideal.ieee, -EReal.coe_mul]; norm_num
theorem word_30 : Ideal.ofBits .f32 0x41F00000#32 = ((30 : ℝ) : EReal) := by
  simp [Ideal.ofBits, Ideal.ieee, -EReal.coe_mul]; norm_num
theorem word_31 : Ideal.ofBits .f32 0x41F80000#32 = ((31 : ℝ) : EReal) := by
  simp [Ideal.ofBits, Ideal.ieee, -EReal.coe_mul]; norm_num

/-! ## Small words of 32 bits -/

/-- A small natural read back signed from its 32-bit word. -/
theorem toInt_ofNat (n : ℕ) (hn : n < 2 ^ 31) : (BitVec.ofNat 32 n).toInt = (n : ℤ) := by
  rw [BitVec.toInt_eq_toNat_cond, BitVec.toNat_ofNat]
  have h : n % 2 ^ 32 = n := Nat.mod_eq_of_lt (by omega)
  rw [h]
  split <;> omega

theorem toInt_toNat_ofNat (n : ℕ) (hn : n < 2 ^ 31) : (BitVec.ofNat 32 n).toInt.toNat = n := by
  rw [toInt_ofNat n hn]; rfl

theorem ofNat_add_one (n : ℕ) : IntOp.addi (BitVec.ofNat 32 n) 1#32 = BitVec.ofNat 32 (n + 1) := by
  rw [BitVec.ofNat_add]
  rfl

/-- Two small naturals have equal words only when equal. -/
theorem cmpi_eq_ofNat (k n : ℕ) (hk : k < 2 ^ 32) (hn : n < 2 ^ 32) :
    IntOp.cmpi .eq (BitVec.ofNat 32 k) (BitVec.ofNat 32 n) = if k = n then 1#1 else 0#1 := by
  unfold IntOp.cmpi
  by_cases h : k = n
  · subst h; simp
  · have hne : BitVec.ofNat 32 k ≠ BitVec.ofNat 32 n := by
      intro he
      have := congrArg BitVec.toNat he
      rw [BitVec.toNat_ofNat, BitVec.toNat_ofNat, Nat.mod_eq_of_lt hk, Nat.mod_eq_of_lt hn] at this
      exact h this
    have hb : (BitVec.ofNat 32 k == BitVec.ofNat 32 n) = false := beq_eq_false_iff_ne.mpr hne
    rw [hb, if_neg h]
    rfl

/-- Adding the extent to a negative index leaves a small non-negative word as it is. -/
theorem wrap_id (n : ℕ) (N : BitVec 32) (hn : n < 2 ^ 31) :
    Scalar.select (IntOp.cmpi .slt (BitVec.ofNat 32 n) 0#32) (IntOp.addi (BitVec.ofNat 32 n) N) (BitVec.ofNat 32 n)
      = BitVec.ofNat 32 n := by
  have h : (BitVec.ofNat 32 n).slt 0#32 = false := by
    rw [BitVec.slt, toInt_ofNat n hn]
    simp
  unfold Scalar.select IntOp.cmpi
  simp [h]

/-! ## Extended reals that are reals, and the conversion of an integer-valued one -/

/-- The reals sit in the extended reals in order, so the embedding commutes with `max`. -/
theorem coe_max_coe (a b : ℝ) : max (a : EReal) (b : EReal) = ((max a b : ℝ) : EReal) :=
  (EReal.coe_strictMono.monotone.map_max).symm

/-- Likewise with `min`. -/
theorem coe_min_coe (a b : ℝ) : min (a : EReal) (b : EReal) = ((min a b : ℝ) : EReal) :=
  (EReal.coe_strictMono.monotone.map_min).symm

/-- Converting an integer-valued real rounds nothing: it only clamps to the signed 32-bit range. -/
theorem fptosi_intCast (z : ℤ) :
    Ideal.fptosi 32 (((z : ℝ) : ℝ) : EReal) = BitVec.ofInt 32 (max (-2147483648) (min 2147483647 z)) := by
  rw [Ideal.fptosi, Ideal.toIntClamped_coe]
  have hz : (if (0 : ℝ) ≤ (z : ℝ) then ⌊(z : ℝ)⌋ else ⌈(z : ℝ)⌉) = z := by
    split <;> simp
  rw [hz]
  norm_num

/-- A word of a value within the signed 32-bit range reads back as that value. -/
theorem toInt_ofInt_small (c : ℤ) (h1 : -2147483648 ≤ c) (h2 : c ≤ 2147483647) :
    (BitVec.ofInt 32 c).toInt = c :=
  BitVec.toInt_ofInt_eq_self (by decide) (by omega) (by omega)

/-- The signed maximum of two words of values in range is the word of the larger value. -/
theorem maxsi_ofInt (a b : ℤ) (ha1 : -2147483648 ≤ a) (ha2 : a ≤ 2147483647) (hb1 : -2147483648 ≤ b)
    (hb2 : b ≤ 2147483647) :
    IntOp.maxsi (BitVec.ofInt 32 a) (BitVec.ofInt 32 b) = BitVec.ofInt 32 (max a b) := by
  unfold IntOp.maxsi
  rw [BitVec.slt_eq_decide, toInt_ofInt_small a ha1 ha2, toInt_ofInt_small b hb1 hb2]
  by_cases h : b < a
  · rw [if_pos (decide_eq_true h), max_eq_left h.le]
  · rw [if_neg (by rw [decide_eq_true_eq]; exact h), max_eq_right (not_lt.mp h)]

/-- The signed minimum of two words of values in range is the word of the smaller value. -/
theorem minsi_ofInt (a b : ℤ) (ha1 : -2147483648 ≤ a) (ha2 : a ≤ 2147483647) (hb1 : -2147483648 ≤ b)
    (hb2 : b ≤ 2147483647) :
    IntOp.minsi (BitVec.ofInt 32 a) (BitVec.ofInt 32 b) = BitVec.ofInt 32 (min a b) := by
  unfold IntOp.minsi
  rw [BitVec.slt_eq_decide, toInt_ofInt_small a ha1 ha2, toInt_ofInt_small b hb1 hb2]
  by_cases h : a < b
  · rw [if_pos (decide_eq_true h), min_eq_left h.le]
  · rw [if_neg (by rw [decide_eq_true_eq]; exact h), min_eq_right (not_lt.mp h)]

/-- Clipping a clamped integer's word to `[0, 30]` with the signed maximum and minimum gives the word of the
    clipped integer. -/
theorem clip_word (z : ℤ) :
    IntOp.minsi 30#32 (IntOp.maxsi 0#32 (BitVec.ofInt 32 (max (-2147483648) (min 2147483647 z))))
      = BitVec.ofNat 32 (max 0 (min 30 z)).toNat := by
  show IntOp.minsi (BitVec.ofInt 32 30)
      (IntOp.maxsi (BitVec.ofInt 32 0) (BitVec.ofInt 32 (max (-2147483648) (min 2147483647 z)))) = _
  rw [maxsi_ofInt 0 _ (by omega) (by omega) (by omega) (by omega),
    minsi_ofInt 30 _ (by omega) (by omega) (by omega) (by omega)]
  have hk : min 30 (max 0 (max (-2147483648) (min 2147483647 z)))
      = (((max 0 (min 30 z)).toNat : ℕ) : ℤ) := by omega
  rw [hk, BitVec.ofInt_natCast]

/-! ## The first computation at one sample: scale by 15.5, clip the floor, then convert -/

/-- The position, as `(x − (−1)) · 15.5`. -/
def kPos (x : EReal) : EReal :=
  FloatOps.mulf (F := Ideal) (φ := .f32) (FloatOps.subf (F := Ideal) (φ := .f32) x (FloatOps.ofBits .f32 0xBF800000#32)) (FloatOps.ofBits .f32 0x41780000#32)

/-- The lower knot's word: the floor clipped to `[0, 30]` in floating point, then converted. -/
def kId (x : EReal) : BitVec 32 :=
  FloatOps.fptosi (F := Ideal) (φ := .f32) 32
    (FloatOps.minimumf (F := Ideal) (φ := .f32) (FloatOps.ofBits .f32 0x41F00000#32)
      (FloatOps.maximumf (F := Ideal) (φ := .f32) (FloatOps.ofBits .f32 0x00000000#32) (FloatOps.floor (F := Ideal) (φ := .f32) (kPos x))))

/-- The offset from the lower knot. -/
def kFrac (x : EReal) : EReal :=
  FloatOps.subf (F := Ideal) (φ := .f32) (kPos x) (FloatOps.sitofp (F := Ideal) .f32 (kId x))

/-- The weight this computation gives knot word `k` at sample `x`: `1 − t` at the lower knot, `t` at the upper, else zero. -/
def kWeight (x : EReal) (k : BitVec 32) : EReal :=
  Scalar.select (IntOp.cmpi .eq k (kId x))
    (FloatOps.subf (F := Ideal) (φ := .f32) (FloatOps.ofBits .f32 0x3F800000#32) (kFrac x))
    (Scalar.select (IntOp.cmpi .eq k (IntOp.addi (kId x) 1#32)) (kFrac x) (FloatOps.ofBits (F := Ideal) .f32 0x00000000#32))

theorem kPos_coe (X : ℝ) : kPos (X : EReal) = ((posR X : ℝ) : EReal) := by
  unfold kPos posR
  rw [Ideal.mulf_def, Ideal.subf_def, Ideal.ofBits_def, Ideal.ofBits_def, word_neg_one, word_15_5,
    ← EReal.coe_sub, ← EReal.coe_mul]
  congr 1
  ring

theorem kId_coe (X : ℝ) : kId (X : EReal) = BitVec.ofNat 32 (knot X) := by
  unfold kId
  rw [kPos_coe]
  show Ideal.fptosi 32 (min (Ideal.ofBits .f32 0x41F00000#32)
      (max (Ideal.ofBits .f32 0x00000000#32) (Ideal.liftRound Int.floor ((posR X : ℝ) : EReal)))) = _
  rw [word_30, word_zero, Ideal.liftRound_coe, coe_max_coe, coe_min_coe]
  have hz : min (30 : ℝ) (max 0 ((⌊posR X⌋ : ℤ) : ℝ)) = ((min 30 (max 0 ⌊posR X⌋) : ℤ) : ℝ) := by
    push_cast; rfl
  rw [hz, fptosi_intCast]
  unfold knot
  have hk : max (-2147483648) (min 2147483647 (min 30 (max 0 ⌊posR X⌋)))
      = (((max 0 (min 30 ⌊posR X⌋)).toNat : ℕ) : ℤ) := by omega
  rw [hk, BitVec.ofInt_natCast]

theorem kFrac_coe (X : ℝ) : kFrac (X : EReal) = ((frac X : ℝ) : EReal) := by
  unfold kFrac
  rw [kPos_coe, kId_coe]
  show ((posR X : ℝ) : EReal) - ((((BitVec.ofNat 32 (knot X)).toInt : ℤ) : ℝ) : EReal) = _
  rw [toInt_ofNat (knot X) (by have := knot_le X; omega), ← EReal.coe_sub, Int.cast_natCast]
  rfl

/-- The weights at a real sample. -/
theorem kWeight_coe (X : ℝ) (k : Fin 32) :
    kWeight (X : EReal) (BitVec.ofNat 32 k.val)
      = if k = lo X then ((1 - frac X : ℝ) : EReal) else if k = hi X then ((frac X : ℝ) : EReal) else 0 := by
  unfold kWeight
  have hk : k.val < 2 ^ 32 := by have := k.isLt; omega
  have hn : knot X < 2 ^ 32 := by have := knot_le X; omega
  have hn1 : knot X + 1 < 2 ^ 32 := by have := knot_le X; omega
  rw [kId_coe, kFrac_coe, ofNat_add_one, cmpi_eq_ofNat _ _ hk hn, cmpi_eq_ofNat _ _ hk hn1,
    Ideal.subf_def, Ideal.ofBits_def, Ideal.ofBits_def, word_one, word_zero, ← EReal.coe_sub, EReal.coe_zero]
  unfold Scalar.select
  have hlo : k = lo X ↔ k.val = knot X := by rw [Fin.ext_iff]; rfl
  have hhi : k = hi X ↔ k.val = knot X + 1 := by rw [Fin.ext_iff]; rfl
  have h01 : ¬ ((0#1 : BitVec 1) = 1) := by decide
  by_cases h1 : k.val = knot X
  · rw [if_pos (hlo.mpr h1)]
    simp only [h1, if_true]
    exact if_pos rfl
  · rw [if_neg (mt hlo.mp h1)]
    simp only [h1, if_false, h01]
    by_cases h2 : k.val = knot X + 1
    · rw [if_pos (hhi.mpr h2)]
      simp only [h2, if_true]
      exact if_pos rfl
    · rw [if_neg (mt hhi.mp h2)]
      simp only [h2, if_false, h01]

/-- Weighing all 32 coefficients of a row is interpolating it. -/
theorem weighted_row (X : ℝ) (f : Fin 32 → EReal) :
    ∑ k : Fin 32, kWeight (X : EReal) (BitVec.ofNat 32 k.val) * f k = term X f := by
  have hne : lo X ≠ hi X := by
    intro h
    have := congrArg Fin.val h
    simp [lo, hi] at this
  rw [Finset.sum_eq_add (lo X) (hi X) hne]
  · rw [kWeight_coe, kWeight_coe, if_pos rfl, if_neg hne.symm, if_pos rfl]
    rfl
  · intro c _ hc
    rw [kWeight_coe, if_neg hc.1, if_neg hc.2, zero_mul]
  · intro h
    exact absurd (Finset.mem_univ _) h
  · intro h
    exact absurd (Finset.mem_univ _) h

/-! ## The second computation at one sample: halve, scale by 31, convert the floor, then clip -/

/-- The position, as `(x − (−1)) / 2 · 31`. -/
def rPos (x : EReal) : EReal :=
  FloatOps.mulf (F := Ideal) (φ := .f32) (FloatOps.hostDivf (F := Ideal) (φ := .f32) (FloatOps.subf (F := Ideal) (φ := .f32) x (FloatOps.ofBits .f32 0xBF800000#32)) (FloatOps.ofBits .f32 0x40000000#32)) (FloatOps.ofBits .f32 0x41F80000#32)

/-- The lower knot's word: the floor converted (saturating), then clipped to `[0, 30]` as an integer. -/
def rId (x : EReal) : BitVec 32 :=
  IntOp.minsi 30#32 (IntOp.maxsi 0#32 (FloatOps.fptosi (F := Ideal) (φ := .f32) 32 (FloatOps.hostUnary (F := Ideal) (φ := .f32) .floor (rPos x))))

/-- The offset from the lower knot. -/
def rFrac (x : EReal) : EReal :=
  FloatOps.subf (F := Ideal) (φ := .f32) (rPos x) (FloatOps.sitofp (F := Ideal) .f32 (rId x))

theorem rPos_coe (X : ℝ) : rPos (X : EReal) = ((posR X : ℝ) : EReal) := by
  unfold rPos posR
  rw [Ideal.mulf_def, Ideal.hostDivf_def, Ideal.subf_def, Ideal.ofBits_def, Ideal.ofBits_def, Ideal.ofBits_def,
    word_neg_one, word_two, word_31, ← EReal.coe_sub, Ideal.div_coe (by norm_num), ← EReal.coe_mul, ← EReal.coe_mul]
  congr 1
  ring

theorem rId_coe (X : ℝ) : rId (X : EReal) = BitVec.ofNat 32 (knot X) := by
  unfold rId
  rw [rPos_coe]
  show IntOp.minsi 30#32 (IntOp.maxsi 0#32
      (Ideal.fptosi 32 (Ideal.liftRound Int.floor ((posR X : ℝ) : EReal)))) = _
  rw [Ideal.liftRound_coe, fptosi_intCast, clip_word]
  rfl

theorem rFrac_coe (X : ℝ) : rFrac (X : EReal) = ((frac X : ℝ) : EReal) := by
  unfold rFrac
  rw [rPos_coe, rId_coe]
  show ((posR X : ℝ) : EReal) - ((((BitVec.ofNat 32 (knot X)).toInt : ℤ) : ℝ) : EReal) = _
  rw [toInt_ofNat (knot X) (by have := knot_le X; omega), ← EReal.coe_sub, Int.cast_natCast]
  rfl

theorem one_sub_rFrac_coe (X : ℝ) :
    FloatOps.subf (F := Ideal) (φ := .f32) (FloatOps.ofBits .f32 0x3F800000#32) (rFrac (X : EReal)) = ((1 - frac X : ℝ) : EReal) := by
  rw [rFrac_coe, Ideal.subf_def, Ideal.ofBits_def, word_one, ← EReal.coe_sub]

/-- The two fetched coefficients, weighed, are the interpolation. -/
theorem fetched_row (X : ℝ) (f : Fin 32 → EReal) :
    f (lo X) * ((1 - frac X : ℝ) : EReal) + f (hi X) * ((frac X : ℝ) : EReal) = term X f := by
  unfold term
  rw [mul_comm (f (lo X)), mul_comm (f (hi X))]

end Cert.Spline

end
-- ==== Proof.LibSumRegroup.lean ====
/-
  Regrouping a finite sum over a range of naturals.

  A sum over `Fin (a * b)` is a double sum: every index below `a * b` is `p * b + q` for exactly one `p < a` and
  `q < b` (division with remainder by `b`), so summing block by block, `b` consecutive indices to a block, visits
  every index once. Twice over, a sum over `Fin (a * b * c)` is a triple sum over the indices `(p * b + q) * c + r`.
  This is how a column of `500000` rows is summed tile by tile: `2000` rows to a tile, `125` tiles to a core, `2` cores.

  A sum over `Fin (a + b + c + d)` is the sum of four sums, one over each consecutive part. This is how a product
  against a matrix whose columns are four blocks side by side is the sum of four partial products.

  All statements are for an arbitrary commutative additive monoid.
-/
import Mathlib.Algebra.BigOperators.Fin
import Mathlib.Data.Fintype.BigOperators
import Mathlib.Logic.Equiv.Fin.Basic

namespace Cert.SumRegroup

variable {M : Type*} [AddCommMonoid M]

/-! ## Products of ranges: block by block -/

/-- The index `p * b + q` of the `q`-th entry of the `p`-th block of length `b` lies below `a * b`. -/
theorem mul_add_lt {a b : ℕ} (p : Fin a) (q : Fin b) : p.val * b + q.val < a * b :=
  calc p.val * b + q.val < p.val * b + b := Nat.add_lt_add_left q.isLt _
    _ = (p.val + 1) * b := (Nat.succ_mul _ _).symm
    _ ≤ a * b := Nat.mul_le_mul_right b p.isLt

/-- A sum over `Fin (a * b)` taken block by block: `a` blocks of `b` consecutive indices. -/
theorem sum_fin_mul (a b : ℕ) (f : Fin (a * b) → M) :
    ∑ i, f i = ∑ p : Fin a, ∑ q : Fin b, f ⟨p.val * b + q.val, mul_add_lt p q⟩ := by
  rw [← (finProdFinEquiv (m := a) (n := b)).sum_comp f, Fintype.sum_prod_type]
  refine Finset.sum_congr rfl fun p _ => Finset.sum_congr rfl fun q _ => congrArg f (Fin.ext ?_)
  show q.val + b * p.val = p.val * b + q.val
  rw [Nat.add_comm, Nat.mul_comm]

/-- The index `(p * b + q) * c + r` lies below `a * b * c`. -/
theorem mul_add_mul_add_lt {a b c : ℕ} (p : Fin a) (q : Fin b) (r : Fin c) :
    (p.val * b + q.val) * c + r.val < a * b * c :=
  mul_add_lt (⟨p.val * b + q.val, mul_add_lt p q⟩ : Fin (a * b)) r

/-- A sum over `Fin (a * b * c)` taken in `a` groups of `b` blocks of `c` consecutive indices. -/
theorem sum_fin_mul_mul (a b c : ℕ) (f : Fin (a * b * c) → M) :
    ∑ i, f i = ∑ p : Fin a, ∑ q : Fin b, ∑ r : Fin c,
      f ⟨(p.val * b + q.val) * c + r.val, mul_add_mul_add_lt p q r⟩ := by
  rw [sum_fin_mul (a * b) c f,
    sum_fin_mul a b fun t : Fin (a * b) => ∑ r : Fin c, f ⟨t.val * c + r.val, mul_add_lt t r⟩]

/-- A column of `500000` rows summed tile by tile: two halves of `125` tiles of `2000` rows; row
    `(cc * 125 + j) * 2000 + r` is row `r` of tile `j` of half `cc`. -/
theorem sum_rows_by_tile (f : Fin 500000 → M) :
    ∑ e, f e = ∑ cc : Fin 2, ∑ j : Fin 125, ∑ r : Fin 2000,
      f ⟨(cc.val * 125 + j.val) * 2000 + r.val, mul_add_mul_add_lt (a := 2) cc j r⟩ :=
  sum_fin_mul_mul 2 125 2000 f

/-! ## Sums of ranges: part by part -/

/-- A sum over `Fin (a + b + c + d)` is the sum of the sums over its four consecutive parts. -/
theorem sum_fin_add4 (a b c d : ℕ) (g : Fin (a + b + c + d) → M) :
    ∑ i, g i
      = (∑ i : Fin a, g ⟨i.val, by omega⟩) + (∑ i : Fin b, g ⟨a + i.val, by omega⟩)
        + (∑ i : Fin c, g ⟨a + b + i.val, by omega⟩) + (∑ i : Fin d, g ⟨a + b + c + i.val, by omega⟩) := by
  rw [Fin.sum_univ_add, Fin.sum_univ_add, Fin.sum_univ_add]
  rfl

/-- A sum over `384` columns made of four blocks side by side, of widths `128`, `128`, `64`, `64`. -/
theorem sum_cols_by_part (g : Fin 384 → M) :
    ∑ i, g i
      = (∑ i : Fin 128, g ⟨i.val, by omega⟩) + (∑ i : Fin 128, g ⟨128 + i.val, by omega⟩)
        + (∑ i : Fin 64, g ⟨256 + i.val, by omega⟩) + (∑ i : Fin 64, g ⟨320 + i.val, by omega⟩) :=
  sum_fin_add4 128 128 64 64 g

end Cert.SumRegroup
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibRank3.lean ====
/-
  Layout operations and one-axis reductions of rank-3 arrays read at an index written by coordinates.

  A reduction of `[a, b, c]` over its middle or its last axis with kept dimensions comes back over the reduced
  axis through a cast to `[a, 1, c]` (or `[a, b, 1]`) and a broadcast to `[a, b, c]`; the same two steps carry a
  matrix `[a, b]` along a new last axis (`[a, b] → [a, b, 1] → [a, b, c]`) or along a new middle axis
  (`[a, c] → [a, 1, c] → [a, b, c]`). Each is read here at `(i, j, k)`. The reductions: at the ideal values a sum
  over one axis is the `Fin`-indexed sum over that axis's coordinates, and a maximum over the last axis of a matrix
  is the fold of `max` over them. General lemmas: any extents.
-/
import Idealize.ShloMosaic.Lib.Pipeline.Value
import Idealize.ShloMosaic.Lib.ValueIdx
import Idealize.ShloMosaic.PureOps.Ideal.Laws

namespace Cert.LibRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A matrix carried along a new last axis: `[a, b] → [a, b, 1] → [a, b, c]` at `(i, j, k)` is the matrix at `(i, j)`. -/
theorem keepLast_apply {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x h) h' (ix3 i j k) = x (ix2 i j) :=
  (broadcastTo_ab1_abc_apply _ h' i j k).trans (shapeCast_ab_ab1_apply x h i j 0)

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A matrix carried along a new middle axis: `[a, c] → [a, 1, c] → [a, b, c]` at `(i, j, k)` is the matrix at `(i, k)`. -/
theorem keepMid_apply {a b c : ℕ} (x : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h) h' (ix3 i j k) = x (ix2 i k) :=
  (broadcastTo_a1c_abc_apply _ h' i j k).trans (shapeCast_ac_a1c_apply x h i 0 k)

/-! ## One-axis reductions at the ideal values, at coordinates -/

variable {φ : FTy}

/-- The sum of an `[a, b]` matrix over its last axis, at row `i`. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ j : Fin b, src (ix2 i j) :=
  (Ideal.multiReduction_add_single src acc h hφ hacc (ix1 i)).trans
    (Finset.sum_congr rfl fun j _ => congrArg src (funext fun d => Fin.ext (by
      match d with | ⟨0, _⟩ => rfl | ⟨1, _⟩ => rfl)))

/-- The maximum of an `[a, b]` matrix over its last axis, at row `i`: the fold of `max` from the accumulator's value. -/
theorem max_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun j => src (ix2 i j)) :=
  (Ideal.multiReduction_maximumf_single src acc h hφ hacc (ix1 i)).trans
    (congrArg (Finset.fold max (Ideal.ofBits φ acc) · (Finset.univ : Finset (Fin b)))
      (funext fun j => congrArg src (funext fun d => Fin.ext (by
        match d with | ⟨0, _⟩ => rfl | ⟨1, _⟩ => rfl))))

/-- The sum of an `[a, b, c]` array over its middle axis, at `(i, k)`. -/
theorem sum_mid3 {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (funext fun d => Fin.ext (by
      match d with | ⟨0, _⟩ => rfl | ⟨1, _⟩ => rfl | ⟨2, _⟩ => rfl)))

/-- The sum of an `[a, b, c]` array over its last axis, at `(i, j)`. -/
theorem sum_last3 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun d => Fin.ext (by
      match d with | ⟨0, _⟩ => rfl | ⟨1, _⟩ => rfl | ⟨2, _⟩ => rfl)))

end Cert.LibRank3
-- ==== Proof.Payload.lean ====
/-
  The block the spline kernel stores, read entry by entry.

  On one block of 512 samples the kernel places every sample on the knot grid (its position, the word of its lower
  knot, the word of the upper one, the offset between them), spreads these over a knot axis of length 32, and forms
  the array of weights basis[r, k, i]: the weight sample (r, i) gives to knot k, which is 1 − t at the lower knot, t at
  the upper one and zero at every other. Flattened row-major to [512, 4096] (column q is knot q / 128 of feature
  q % 128) it is multiplied by the coefficient table, whose row k · 128 + i holds knot k of feature i.

  So the stored entry (r, o) is the sum over the 4096 columns of weight times coefficient, and, taken feature by
  feature, the sum over the 128 features of one coefficient row interpolated at the sample.
-/
import proofs.«132766_j15350213116057_2_alg».proof.Proof.Gen.KernelIdeal.Skeleton
import proofs.«132766_j15350213116057_2_alg».proof.Proof.Spline
import proofs.«132766_j15350213116057_2_alg».proof.Proof.LibPlainDot
import proofs.«132766_j15350213116057_2_alg».proof.Proof.LibRank3
import proofs.«132766_j15350213116057_2_alg».proof.Proof.LibSumRegroup
import Idealize.ShloMosaic.Lib.ValueLayout

noncomputable section

open scoped BigOperators

namespace Cert.Payload

open Idealize.ShloMosaic Idealize.ShloMosaic.ValueIdx Cert.KernelIdeal Cert.KernelIdeal.Gen

/-! ## The per-sample arrays -/

/-- Every sample's position on the knot grid. -/
def posV (x0 : Vec Ideal S512x128 .f32) : FVec Ideal S512x128 .f32 :=
  mulf (subf x0 (broadcast S512x128 (Scalar.ofBits .f32 0xBF800000#32)))
    (broadcast S512x128 (Scalar.ofBits .f32 0x41780000#32))

/-- Every sample's lower knot, as a word. -/
def idV (x0 : Vec Ideal S512x128 .f32) : IVec S512x128 32 :=
  fptosi 32 (minimumf (broadcast S512x128 (Scalar.ofBits .f32 0x41F00000#32))
    (maximumf (broadcast S512x128 (Scalar.ofBits .f32 0x00000000#32)) (floor (posV x0))))

/-- Every sample's offset from its lower knot. -/
def fracV (x0 : Vec Ideal S512x128 .f32) : FVec Ideal S512x128 .f32 :=
  subf (posV x0) (sitofp .f32 (idV x0))

theorem posV_apply (x0 : Vec Ideal S512x128 .f32) (r : Fin 512) (i : Fin 128) :
    posV x0 (ix2 r i) = Cert.Spline.kPos (x0 (ix2 r i)) := rfl

theorem idV_apply (x0 : Vec Ideal S512x128 .f32) (r : Fin 512) (i : Fin 128) :
    idV x0 (ix2 r i) = Cert.Spline.kId (x0 (ix2 r i)) := rfl

theorem fracV_apply (x0 : Vec Ideal S512x128 .f32) (r : Fin 512) (i : Fin 128) :
    fracV x0 (ix2 r i) = Cert.Spline.kFrac (x0 (ix2 r i)) := rfl

/-! ## The knot numbers and the carried arrays -/

/-- The knot numbers 0 … 31 spread over rows and features. -/
def knots : IVec S512x32x128 32 :=
  broadcastTo S512x32x128
    (shapeCast S1x32x128 (iota .tc S32x128 32 [0] iota_S32x128_d0_w32) shapeCasts_S32x128_S1x32x128)
    broadcasts_S1x32x128_S512x32x128

/-- At (r, k, i) the knot number is k. -/
theorem knots_apply (r : Fin 512) (k : Fin 32) (i : Fin 128) : knots (ix3 r k i) = BitVec.ofNat 32 k.val := by
  unfold knots
  refine (broadcastTo_apply _ broadcasts_S1x32x128_S512x32x128 (ix3 r k i) (ix3 (0 : Fin 1) k i) fun ax => ?_).trans ?_
  · match ax with
    | ⟨0, _⟩ => rfl
    | ⟨1, _⟩ => rfl
    | ⟨2, _⟩ => rfl
  · refine (shapeCast_ab_1ab_apply _ shapeCasts_S32x128_S1x32x128 (0 : Fin 1) k i).trans ?_
    exact iota_single_apply .tc S32x128 32 0 iota_S32x128_d0_w32 (ix2 k i)

/-- A per-sample array carried along the knot axis reads, at (r, k, i), the sample (r, i). -/
theorem carried_apply {α : Type} (v : S512x128.Idx → α) (h : S512x128.ShapeCasts S512x1x128)
    (h' : S512x1x128.Broadcasts S512x32x128) (r : Fin 512) (k : Fin 32) (i : Fin 128) :
    broadcastTo S512x32x128 (shapeCast S512x1x128 v h) h' (ix3 r k i) = v (ix2 r i) :=
  Cert.LibRank3.keepMid_apply v h h' r k i

/-- The same with one more cast of [512, 1, 128] to itself in between. -/
theorem carried_self_apply {α : Type} (v : S512x128.Idx → α) (h : S512x128.ShapeCasts S512x1x128)
    (hs : S512x1x128.ShapeCasts S512x1x128) (h' : S512x1x128.Broadcasts S512x32x128)
    (r : Fin 512) (k : Fin 32) (i : Fin 128) :
    broadcastTo S512x32x128 (shapeCast S512x1x128 (shapeCast S512x1x128 v h) hs) h' (ix3 r k i) = v (ix2 r i) := by
  rw [shapeCast_self]
  exact Cert.LibRank3.keepMid_apply v h h' r k i

/-- One minus the carried offset: the subtraction is made on [512, 1, 128] and then carried along the knot axis. -/
theorem one_sub_carried_apply (c : Ideal .f32) (v : FVec Ideal S512x128 .f32) (h : S512x128.ShapeCasts S512x1x128)
    (hs : S512x1x128.ShapeCasts S512x1x128) (h' : S512x1x128.Broadcasts S512x32x128)
    (r : Fin 512) (k : Fin 32) (i : Fin 128) :
    broadcastTo S512x32x128
        (shapeCast S512x1x128 (subf (broadcast S512x1x128 c) (shapeCast S512x1x128 v h)) hs) h' (ix3 r k i)
      = FloatOps.subf (F := Ideal) (φ := .f32) c (v (ix2 r i)) := by
  rw [shapeCast_self]
  refine (Cert.LibRank3.broadcastTo_a1c_abc_apply _ h' r k i).trans ?_
  show FloatOps.subf (F := Ideal) (φ := .f32) c (shapeCast S512x1x128 v h (ix3 r (0 : Fin 1) i)) = _
  rw [Cert.LibRank3.shapeCast_ac_a1c_apply v h r 0 i]

/-! ## The weights -/

/-- basis[r, k, i]: the weight sample (r, i) gives knot k. -/
def basis (x0 : Vec Ideal S512x128 .f32) : FVec Ideal S512x32x128 .f32 :=
  select
    (cmpi .eq knots
      (broadcastTo S512x32x128 (shapeCast S512x1x128 (idV x0) shapeCasts_S512x128_S512x1x128)
        broadcasts_S512x1x128_S512x32x128))
    (broadcastTo S512x32x128
      (shapeCast S512x1x128
        (subf (broadcast S512x1x128 (Scalar.ofBits .f32 0x3F800000#32))
          (shapeCast S512x1x128 (fracV x0) shapeCasts_S512x128_S512x1x128))
        shapeCasts_S512x1x128_S512x1x128)
      broadcasts_S512x1x128_S512x32x128)
    (select
      (cmpi .eq knots
        (broadcastTo S512x32x128
          (shapeCast S512x1x128 (addi (idV x0) (broadcast S512x128 1#32)) shapeCasts_S512x128_S512x1x128)
          broadcasts_S512x1x128_S512x32x128))
      (broadcastTo S512x32x128
        (shapeCast S512x1x128 (shapeCast S512x1x128 (fracV x0) shapeCasts_S512x128_S512x1x128)
          shapeCasts_S512x1x128_S512x1x128)
        broadcasts_S512x1x128_S512x32x128)
      (broadcast S512x32x128 (Scalar.ofBits .f32 0x00000000#32)))

/-- The stored block is the flattened weights times the coefficient table, into zero. -/
theorem pay_eq (x0 : Vec Ideal S512x128 .f32) (w : Vec Ideal S4096x256 .bf16) :
    k0_pay1 (F := Ideal) x0 w
      = matmul (φ₂ := .bf16) dot_S512x4096_S4096x256_S512x256_1_0_0_1_n_n none
          (shapeCast S512x4096 (truncf .bf16 (basis x0) bitsLt_bf16_f32) shapeCasts_S512x32x128_S512x4096)
          (shapeCast S4096x256 w shapeCasts_S4096x256_S4096x256)
          (constant S512x256 .f32 0x00000000#32) := rfl

/-- The weight array at (r, k, i) is the weight the sample (r, i) gives the knot word k. -/
theorem basis_apply (x0 : Vec Ideal S512x128 .f32) (r : Fin 512) (k : Fin 32) (i : Fin 128) :
    basis x0 (ix3 r k i) = Cert.Spline.kWeight (x0 (ix2 r i)) (BitVec.ofNat 32 k.val) := by
  have e1 := knots_apply r k i
  have e2 := carried_apply (idV x0) shapeCasts_S512x128_S512x1x128 broadcasts_S512x1x128_S512x32x128 r k i
  have e3 := one_sub_carried_apply (Scalar.ofBits .f32 0x3F800000#32) (fracV x0) shapeCasts_S512x128_S512x1x128
    shapeCasts_S512x1x128_S512x1x128 broadcasts_S512x1x128_S512x32x128 r k i
  have e4 := carried_apply (addi (idV x0) (broadcast S512x128 1#32)) shapeCasts_S512x128_S512x1x128
    broadcasts_S512x1x128_S512x32x128 r k i
  have e5 := carried_self_apply (fracV x0) shapeCasts_S512x128_S512x1x128 shapeCasts_S512x1x128_S512x1x128
    broadcasts_S512x1x128_S512x32x128 r k i
  show Scalar.select
      (IntOp.cmpi .eq (knots (ix3 r k i))
        (broadcastTo S512x32x128 (shapeCast S512x1x128 (idV x0) shapeCasts_S512x128_S512x1x128)
          broadcasts_S512x1x128_S512x32x128 (ix3 r k i)))
      (broadcastTo S512x32x128
        (shapeCast S512x1x128
          (subf (broadcast S512x1x128 (Scalar.ofBits .f32 0x3F800000#32))
            (shapeCast S512x1x128 (fracV x0) shapeCasts_S512x128_S512x1x128))
          shapeCasts_S512x1x128_S512x1x128)
        broadcasts_S512x1x128_S512x32x128 (ix3 r k i))
      (Scalar.select
        (IntOp.cmpi .eq (knots (ix3 r k i))
          (broadcastTo S512x32x128
            (shapeCast S512x1x128 (addi (idV x0) (broadcast S512x128 1#32)) shapeCasts_S512x128_S512x1x128)
            broadcasts_S512x1x128_S512x32x128 (ix3 r k i)))
        (broadcastTo S512x32x128
          (shapeCast S512x1x128 (shapeCast S512x1x128 (fracV x0) shapeCasts_S512x128_S512x1x128)
            shapeCasts_S512x1x128_S512x1x128)
          broadcasts_S512x1x128_S512x32x128 (ix3 r k i))
        (Scalar.ofBits (F := Ideal) .f32 0x00000000#32))
    = _
  rw [e1, e2, e3, e4, e5]
  rfl

/-! ## The stored entry -/

/-- Entry (r, o) of the stored block: the sum over the 4096 columns q — knot q / 128 of feature q % 128 — of the
    weight of that knot at sample (r, q % 128) times the coefficient in row q, column o. -/
theorem pay_sum (x0 : Vec Ideal S512x128 .f32) (w : Vec Ideal S4096x256 .bf16) (r : Fin 512) (o : Fin 256) :
    Cert.KernelIdeal.Gen.k0_pay1 (F := Ideal) x0 w (ix2 r o) = ∑ q : Fin 4096, Cert.Spline.kWeight (x0 (ix2 r ⟨q.val % 128, Nat.mod_lt _ (by decide)⟩)) (BitVec.ofNat 32 (q.val / 128)) * w (ix2 q o) := by
  rw [pay_eq]
  refine (Cert.PlainDot.matmul_zero_ix2 dot_S512x4096_S4096x256_S512x256_1_0_0_1_n_n rfl none _ _ r o).trans ?_
  refine Finset.sum_congr rfl fun q _ => ?_
  rw [shapeCast_self]
  refine congrArg (· * w (ix2 q o)) ?_
  have hk : q.val / 128 < 32 := by have := q.isLt; omega
  refine (shapeCast_apply _ shapeCasts_S512x32x128_S512x4096 (ix2 r q)
    (ix3 r (⟨q.val / 128, hk⟩ : Fin 32) (⟨q.val % 128, Nat.mod_lt _ (by decide)⟩ : Fin 128)) ?_).trans ?_
  · rw [Shape.rowMajor_val_three, Shape.rowMajor_val_two]
    show (r.val * 32 + q.val / 128) * 128 + q.val % 128 = r.val * 4096 + q.val
    omega
  · exact basis_apply x0 r ⟨q.val / 128, hk⟩ ⟨q.val % 128, Nat.mod_lt _ (by decide)⟩

/-- A sum over the 4096 columns taken knot by knot: column k · 128 + i is knot k of feature i. -/
theorem sum_columns {M : Type*} [AddCommMonoid M] (f : Fin 4096 → M) :
    ∑ q, f q = ∑ k : Fin 32, ∑ i : Fin 128, f ⟨k.val * 128 + i.val, Cert.SumRegroup.mul_add_lt k i⟩ :=
  Cert.SumRegroup.sum_fin_mul 32 128 f

/-- Entry (r, o) of the stored block on a row of real samples: the sum over the 128 features of that feature's
    coefficient row — rows k · 128 + i of the table, column o — interpolated at the sample. -/
theorem pay_entry (x0 : Vec Ideal S512x128 .f32) (w : Vec Ideal S4096x256 .bf16) (r : Fin 512) (o : Fin 256) (hx : ∀ i : Fin 128, ∃ X : ℝ, x0 (ix2 r i) = (X : EReal)) :
    Cert.KernelIdeal.Gen.k0_pay1 (F := Ideal) x0 w (ix2 r o) = ∑ i : Fin 128, Cert.Spline.term (x0 (ix2 r i)).toReal (fun k : Fin 32 => w (ix2 ⟨k.val * 128 + i.val, Cert.SumRegroup.mul_add_lt k i⟩ o)) := by
  rw [pay_sum, sum_columns, Finset.sum_comm]
  refine Finset.sum_congr rfl fun i _ => ?_
  obtain ⟨X, hX⟩ := hx i
  rw [hX, EReal.toReal_coe, ← Cert.Spline.weighted_row X]
  refine Finset.sum_congr rfl fun k _ => ?_
  have hi : (⟨(k.val * 128 + i.val) % 128, Nat.mod_lt _ (by decide)⟩ : Fin 128) = i :=
    Fin.ext (by show (k.val * 128 + i.val) % 128 = i.val; have := i.isLt; omega)
  have hk : (k.val * 128 + i.val) / 128 = k.val := by have := i.isLt; omega
  show Cert.Spline.kWeight (x0 (ix2 r ⟨(k.val * 128 + i.val) % 128, Nat.mod_lt _ (by decide)⟩))
      (BitVec.ofNat 32 ((k.val * 128 + i.val) / 128)) * _ = _
  rw [hi, hk, hX]

end Cert.Payload

end
-- ==== Proof.KernelValue.lean ====
/-
  The kernel's result array as the spline layer of its two argument arrays.

  The grid has four points; point `t` reads rows `512 t … 512 t + 511` of the samples and the whole coefficient
  table, and writes rows `512 t … 512 t + 511` of the result. The table the region finds is the coefficient array
  transposed to `[32, 128, 256]` and flattened to `[4096, 256]`: row `k · 128 + i`, column `o` holds coefficient
  `(o, i, k)`. Entry `(r, o)` of a written block is therefore the sum over the features `i` of coefficient row
  `(o, i)` interpolated at sample `(512 t + r, i)` — entry `(512 t + r, o)` of the layer — and the four blocks
  cover the result.
-/
import proofs.«132766_j15350213116057_2_alg».proof.Proof.Gen.KernelIdeal.Value
import proofs.«132766_j15350213116057_2_alg».proof.Proof.Spline
import proofs.«132766_j15350213116057_2_alg».proof.Proof.LibSumRegroup
import proofs.«132766_j15350213116057_2_alg».proof.Proof.Payload
import Idealize.ShloMosaic.Lib.ValueIdx
import Idealize.ShloMosaic.Lib.Pipeline.Value
import Idealize.ShloMosaic.Lib.StableHlo.Run

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

open Cert.Payload (pay_entry)

/-- The coefficient table the region finds: row `k * 128 + i`, column `o` holds coefficient `(o, i, k)`. -/
theorem table_apply (c : Dev nD) (k : Fin 32) (i : Fin 128) (o : Fin 256) :
    (V m c main_v2 : S4096x256.Idx → EReal) (ix2 ⟨k.val * 128 + i.val, Cert.SumRegroup.mul_add_lt k i⟩ o)
      = (m ((c : Thread nD τ).loc main_arg1) : S256x128x32.Idx → EReal) (ix3 o i k) := by
  have e : (V m c main_v2 : S4096x256.Idx → EReal)
      = truncf (F := Ideal) .bf16 (shapeCast S4096x256 (transpose S32x128x256 [2, 1, 0] (m ((c : Thread nD τ).loc main_arg1) : S256x128x32.Idx → EReal) transposes_S256x128x32_S32x128x256_2_1_0) shapeCasts_S32x128x256_S4096x256) bitsLt_bf16_f32 := by
    dsimp only [Gen.V, Gen.hostOps0]; after_results; rfl
  rw [e, truncf_apply]
  rw [shapeCast_apply _ shapeCasts_S32x128x256_S4096x256 _ (ix3 k i o) (by
    rw [Shape.rowMajor_val_three, Shape.rowMajor_val_two]
    show (k.val * 128 + i.val) * 256 + o.val = (k.val * 128 + i.val) * 256 + o.val
    rfl)]
  exact transpose_apply [2, 1, 0] _ transposes_S256x128x32_S32x128x256_2_1_0 (ix3 k i o) (ix3 o i k)
    (fun b => match b with | ⟨0, _⟩ => rfl | ⟨1, _⟩ => rfl | ⟨2, _⟩ => rfl)

theorem hz : (![0, 0] : Fin 2 → Nat) = fun _ => 0 := funext fun a => by fin_cases a <;> rfl

/-- The three windows' block indices over the grid: the samples' and the result's row blocks move together, the
    table's block stays. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 3 :=
  (by decide +kernel : ∀ t : Fin grid0.N, _)

/-- Every row block of the result is some point's. -/
theorem idx_onto : ∀ q : Fin 4, ∃ t : Fin cfg0.N, win0_2.index t = ![q.val, 0] :=
  (by decide +kernel : ∀ q : Fin 4, ∃ t : Fin grid0.N, win0_2.index t = ![q.val, 0])

/-- Row `r` of the samples' block at point `t` is row `512 t + r` of the samples. -/
theorem samples_blk (c : Dev nD) (t : Fin cfg0.N) (r : Fin 512) (i : Fin 128)
    (hlt : win0_2.index t (0 : Fin 2) * 512 + r.val < 2048) :
    iblk m c 0 t (ix2 r i)
      = (m ((c : Thread nD τ).loc main_arg0) : S2048x128.Idx → EReal) (ix2 ⟨win0_2.index t (0 : Fin 2) * 512 + r.val, hlt⟩ i) := by
  show V m c main_arg0 (((cfg0.win 0).blk t).view.emb (ix2 r i)) = _
  rw [V_main_arg0]
  refine congrArg _ (funext fun a => Fin.ext ?_)
  obtain ⟨e0, e1, -⟩ := idx_facts t
  match a with
  | ⟨0, _⟩ =>
    show win0_0.index t (0 : Fin 2) * 512 + 1 * r.val = win0_2.index t (0 : Fin 2) * 512 + r.val
    omega
  | ⟨1, _⟩ =>
    show win0_0.index t (1 : Fin 2) * 128 + 1 * i.val = i.val
    omega

/-- The table's block at every point is the whole table. -/
theorem table_blk (c : Dev nD) (t : Fin cfg0.N) (q : Fin 4096) (o : Fin 256) :
    iblk m c 1 t (ix2 q o) = (V m c main_v2 : S4096x256.Idx → EReal) (ix2 q o) := by
  show V m c main_v2 (((cfg0.win 1).blk t).view.emb (ix2 q o)) = _
  refine congrArg _ (funext fun a => Fin.ext ?_)
  obtain ⟨-, -, e2, e3, -⟩ := idx_facts t
  match a with
  | ⟨0, _⟩ =>
    show win0_1.index t (0 : Fin 2) * 4096 + 1 * q.val = q.val
    omega
  | ⟨1, _⟩ =>
    show win0_1.index t (1 : Fin 2) * 256 + 1 * o.val = o.val
    omega

/-- Entry `(r, o)` of the result's block at point `t` is entry `(512 t + r, o)` of the result. -/
theorem result_emb (t : Fin cfg0.N) (r : Fin 512) (o : Fin 256)
    (hlt : win0_2.index t (0 : Fin 2) * 512 + r.val < 2048) :
    ((cfg0.win 2).blk t).view.emb (ix2 r o) = (ix2 ⟨win0_2.index t (0 : Fin 2) * 512 + r.val, hlt⟩ o : S2048x256.Idx) := by
  refine funext fun a => Fin.ext ?_
  obtain ⟨-, -, -, -, e4, -⟩ := idx_facts t
  match a with
  | ⟨0, _⟩ =>
    show win0_2.index t (0 : Fin 2) * 512 + 1 * r.val = win0_2.index t (0 : Fin 2) * 512 + r.val
    omega
  | ⟨1, _⟩ =>
    show win0_2.index t (1 : Fin 2) * 256 + 1 * o.val = o.val
    omega

/-- What point `t` writes back is block `t` of the layer of the argument arrays, when every sample is a real. -/
theorem flushed_eq (c : Dev nD) (t : Fin cfg0.N)
    (hx : ∀ y, ∃ X : ℝ, (m ((c : Thread nD τ).loc main_arg0) : S2048x128.Idx → EReal) y = (X : EReal)) :
    (dats m 0 c).flushed 2 t = ((cfg0.win 2).blk t).view.read (Elt Ideal)
      (Cert.Spline.G (m ((c : Thread nD τ).loc main_arg0)) (m ((c : Thread nD τ).loc main_arg1))) := by
  rw [Cert.KernelIdeal.Value.flushed2]
  unfold out0_2
  rw [View.canon_unit_zero hz]
  simp only [View.ld_unit_zero (S := S512x128) hz, View.ld_unit_zero (S := S4096x256) hz]
  funext y
  obtain ⟨r, o, rfl⟩ : ∃ (r : Fin 512) (o : Fin 256), y = ix2 r o := ⟨y 0, y 1, eq_ix2 y⟩
  have hlt : win0_2.index t (0 : Fin 2) * 512 + r.val < 2048 := by
    have := (idx_facts t).2.2.2.2.2; have := r.isLt; omega
  show k0_pay1 (F := Ideal) (iblk m c 0 t) (iblk m c 1 t) (ix2 r o)
    = Cert.Spline.G (m ((c : Thread nD τ).loc main_arg0)) (m ((c : Thread nD τ).loc main_arg1)) (((cfg0.win 2).blk t).view.emb (ix2 r o))
  rw [result_emb t r o hlt, Cert.Spline.G_ix2]
  rw [pay_entry (iblk m c 0 t) (iblk m c 1 t) r o (fun i => by rw [samples_blk m c t r i hlt]; exact hx _)]
  unfold Cert.Spline.entry
  refine Finset.sum_congr rfl fun i _ => ?_
  rw [samples_blk m c t r i hlt]
  refine congrArg _ (funext fun k => ?_)
  rw [table_blk, table_apply]

/-- An index of the result lies in point `t`'s block iff its row lies in that block's 512 rows. -/
theorem mem_blk (t : Fin cfg0.N) (i : S2048x256.Idx) :
    i ∈ ((cfg0.win 2).blk t).view.set ↔ ∀ a : Fin 2, win0_2.index t a * S512x256.size a ≤ (i a).val ∧ (i a).val < win0_2.index t a * S512x256.size a + S512x256.size a := by
  show i ∈ ((View.whole main_v3).slice (win0_2.rect t)).set ↔ _
  rw [View.set_slice_whole, Rect.mem_set_unit]
  exact Iff.rfl

/-- The four blocks cover the result. -/
theorem cover (i : S2048x256.Idx) : ∃ t : Fin cfg0.N, (cfg0.win 2).flush t = true ∧ i ∈ ((cfg0.win 2).blk t).view.set := by
  have hi0 : (i 0).val < 2048 := (i 0).isLt
  have hi1 : (i 1).val < 256 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 256 ≤ (i 1).val ∧ (i 1).val < win0_2.index t (1 : Fin 2) * 256 + 256
    omega

/-- The result array after the run is the layer of the argument arrays, when every sample is a real. -/
theorem final (c : Dev nD)
    (hx : ∀ y, ∃ X : ℝ, (m ((c : Thread nD τ).loc main_arg0) : S2048x128.Idx → EReal) y = (X : EReal)) :
    (dats m 0 c).arrAt 2 cfg0.N
      = Cert.Spline.G (m ((c : Thread nD τ).loc main_arg0)) (m ((c : Thread nD τ).loc main_arg1)) :=
  (dats m 0 c).arrAt_eq_of_cover 2 _ (fun t _ => flushed_eq m c t hx) cover

/-- The kernel's run: it ends with the result array at the layer of the argument arrays and the arguments unchanged,
    when every sample is a real. -/
theorem run (hx : ∀ c : Dev nD, ∀ y, ∃ X : ℝ, (m ((c : Thread nD τ).loc main_arg0) : S2048x128.Idx → EReal) y = (X : EReal)) :
    θ_run defs (onTc (τ := τ) (main (F := Ideal))) ⟨m, fun _ => 0, ρ⟩ fun r => ∀ c : Dev nD,
      r.2.mem ((c : Thread nD τ).loc main_v3)
        = Cert.Spline.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hx c)), (h c).2⟩)
    (Cert.KernelIdeal.Value.run_blocks m ρ)

end Cert.KernelValue

end
-- ==== Proof.LibPointGather.lean ====
/-
  Reading ONE element of a rank-3 array at a position given by three integer planes.

  The setting is the indexing `coeffs[p, q, r]` of an array `coeffs : [A, B, C]` by three integer arrays
  `p, q, r : [E1, E2, E3]` of one common shape. It is spelled in two layout steps. First the three planes, each
  carried as `[E1, E2, E3, 1]`, are laid side by side along a new last axis, giving an array of start positions
  `[E1, E2, E3, 3]` whose last coordinate says which of the three planes is meant. Then a gather whose slices are
  single elements (every operand axis collapsed, slice sizes `1, 1, 1`, the position vector along the last axis of
  the start positions, no batching axes) takes, for each result index `(e1, e2, e3)`, the operand's element at the
  position `(start[e1, e2, e3, 0], start[e1, e2, e3, 1], start[e1, e2, e3, 2])`.

  Two facts are proved, for any extents and any integer width.

  * The gather at `(e1, e2, e3)` is the operand at that position, each of its three components read as a SIGNED
    integer, negative values becoming `0`, and then capped at the last valid coordinate of its axis
    (`min (toNat (toInt word)) (extent − 1)`): a gather never reads outside its operand, it moves the slice back
    inside. With single-element slices the cap is `extent − 1`.
  * The side-by-side array at `(e1, e2, e3, k)`, for `k = 0, 1, 2`, is the `k`-th plane at `(e1, e2, e3, 0)`:
    each plane is one wide along the joined axis, so the `k` planes before it take up exactly `k` places.

  Both are read at indices built from their coordinates (`ix3`, `ix4`), and only the AXIS numbers (three or four of
  them) are ever told apart by cases; the coordinates themselves stay variables.
-/
import Idealize.ShloMosaic.Lib.ValueIdx
import Idealize.ShloMosaic.Lib.Pipeline.Value

namespace Cert.PointGather

open Idealize.ShloMosaic Idealize.ShloMosaic.ValueIdx

variable {α : Type}

/-! ## The single-element gather of a rank-3 operand -/

/-- The dimension numbers of the single-element gather: operand `[A, B, C]`, start positions `[E1, E2, E3, 3]` with the
    position vector along the last axis, result `[E1, E2, E3]`; every operand axis is collapsed and named, in order,
    by the position vector's three components, and every slice is one element. The side conditions `wf` are a
    hypothesis here; on literal extents they are decidable. -/
abbrev pointDims (A B C E1 E2 E3 : Nat)
    (wf : GatherDims.WF ⟨3, ![A, B, C]⟩ ⟨4, ![E1, E2, E3, 3]⟩ ⟨3, ![E1, E2, E3]⟩ [] [0, 1, 2] [] [0, 1, 2] [] 3 ![1, 1, 1]) :
    GatherDims ⟨3, ![A, B, C]⟩ ⟨4, ![E1, E2, E3, 3]⟩ ⟨3, ![E1, E2, E3]⟩ where
  offsetDims := []
  collapsedSliceDims := [0, 1, 2]
  operandBatchingDims := []
  startIndicesBatchingDims := []
  startIndexMap := [0, 1, 2]
  indexVectorDim := 3
  sliceSizes := ![1, 1, 1]
  wf := wf

/-- THE GATHER READ AT `(e1, e2, e3)`: the operand at the position whose three components are the start positions
    `idx[e1, e2, e3, 0]`, `idx[e1, e2, e3, 1]`, `idx[e1, e2, e3, 2]`, each read signed and capped into its axis.

    On each operand axis the operand index is the capped start plus a batching coordinate plus an offset coordinate.
    There is no batching axis, and every axis is collapsed, so the two added terms are `0`; the start on axis `k` is
    component `k` of the position vector, found at the result's own coordinates with `k` on the last axis. -/
theorem gather_point_apply {A B C E1 E2 E3 w : Nat} (hA : 0 < A) (hB : 0 < B) (hC : 0 < C)
    (wf : GatherDims.WF ⟨3, ![A, B, C]⟩ ⟨4, ![E1, E2, E3, 3]⟩ ⟨3, ![E1, E2, E3]⟩ [] [0, 1, 2] [] [0, 1, 2] [] 3 ![1, 1, 1])
    (x : (⟨3, ![A, B, C]⟩ : Shape).Idx → α) (idx : IVec ⟨4, ![E1, E2, E3, 3]⟩ w)
    (e1 : Fin E1) (e2 : Fin E2) (e3 : Fin E3) :
    Host.gather (pointDims A B C E1 E2 E3 wf) x idx (ix3 e1 e2 e3)
      = x (ix3 ⟨min (idx (ix4 e1 e2 e3 (0 : Fin 3))).toInt.toNat (A - 1), by omega⟩
               ⟨min (idx (ix4 e1 e2 e3 (1 : Fin 3))).toInt.toNat (B - 1), by omega⟩
               ⟨min (idx (ix4 e1 e2 e3 (2 : Fin 3))).toInt.toNat (C - 1), by omega⟩) := by
  unfold Host.gather
  congr 1
  funext a
  match a with
  | ⟨0, _⟩ =>
    -- operand axis 0: its start is component 0 of the position vector; nothing is added to it
    refine Fin.ext ?_
    show (pointDims A B C E1 E2 E3 wf).start (ix3 e1 e2 e3) idx (0 : Fin 3)
        + (pointDims A B C E1 E2 E3 wf).batchCoord (ix3 e1 e2 e3) (0 : Fin 3)
        + (pointDims A B C E1 E2 E3 wf).offCoord (ix3 e1 e2 e3) (0 : Fin 3) = _
    have hm : (0 : Fin 3) ∈ (pointDims A B C E1 E2 E3 wf).startIndexMap :=
      show (0 : Fin 3) ∈ ([0, 1, 2] : List (Fin 3)) from by decide
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos hm]
    have hsi : (pointDims A B C E1 E2 E3 wf).siIdx (ix3 e1 e2 e3)
        ⟨List.idxOf (0 : Fin 3) (pointDims A B C E1 E2 E3 wf).startIndexMap, List.idxOf_lt_length_iff.2 hm⟩
          = ix4 e1 e2 e3 (0 : Fin 3) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    -- operand axis 1: its start is component 1 of the position vector; nothing is added to it
    refine Fin.ext ?_
    show (pointDims A B C E1 E2 E3 wf).start (ix3 e1 e2 e3) idx (1 : Fin 3)
        + (pointDims A B C E1 E2 E3 wf).batchCoord (ix3 e1 e2 e3) (1 : Fin 3)
        + (pointDims A B C E1 E2 E3 wf).offCoord (ix3 e1 e2 e3) (1 : Fin 3) = _
    have hm : (1 : Fin 3) ∈ (pointDims A B C E1 E2 E3 wf).startIndexMap :=
      show (1 : Fin 3) ∈ ([0, 1, 2] : List (Fin 3)) from by decide
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos hm]
    have hsi : (pointDims A B C E1 E2 E3 wf).siIdx (ix3 e1 e2 e3)
        ⟨List.idxOf (1 : Fin 3) (pointDims A B C E1 E2 E3 wf).startIndexMap, List.idxOf_lt_length_iff.2 hm⟩
          = ix4 e1 e2 e3 (1 : Fin 3) := by
      funext b; refine Fin.ext ?_
      match b with
      | ⟨0, _⟩ => rfl
      | ⟨1, _⟩ => rfl
      | ⟨2, _⟩ => rfl
      | ⟨3, _⟩ => rfl
    rw [hsi]
    rfl
  | ⟨2, _⟩ =>
    -- operand axis 2: its start is component 2 of the position vector; nothing is added to it
    refine Fin.ext ?_
    show (pointDims A B C E1 E2 E3 wf).start (ix3 e1 e2 e3) idx (2 : Fin 3)
        + (pointDims A B C E1 E2 E3 wf).batchCoord (ix3 e1 e2 e3) (2 : Fin 3)
        + (pointDims A B C E1 E2 E3 wf).offCoord (ix3 e1 e2 e3) (2 : Fin 3) = _
    have hm : (2 : Fin 3) ∈ (pointDims A B C E1 E2 E3 wf).startIndexMap :=
      show (2 : Fin 3) ∈ ([0, 1, 2] : List (Fin 3)) from by decide
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos hm]
    have hsi : (pointDims A B C E1 E2 E3 wf).siIdx (ix3 e1 e2 e3)
        ⟨List.idxOf (2 : Fin 3) (pointDims A B C E1 E2 E3 wf).startIndexMap, List.idxOf_lt_length_iff.2 hm⟩
          = ix4 e1 e2 e3 (2 : Fin 3) := by
      funext b; refine Fin.ext ?_
      match b with
      | ⟨0, _⟩ => rfl
      | ⟨1, _⟩ => rfl
      | ⟨2, _⟩ => rfl
      | ⟨3, _⟩ => rfl
    rw [hsi]
    rfl

/-- The same reading for ANY record of dimension numbers equal to `pointDims` — a record declared elsewhere with the
    same fields is equal to it by `rfl`. -/
theorem gather_point_apply_of_eq {A B C E1 E2 E3 w : Nat} (hA : 0 < A) (hB : 0 < B) (hC : 0 < C)
    (wf : GatherDims.WF ⟨3, ![A, B, C]⟩ ⟨4, ![E1, E2, E3, 3]⟩ ⟨3, ![E1, E2, E3]⟩ [] [0, 1, 2] [] [0, 1, 2] [] 3 ![1, 1, 1])
    (d : GatherDims ⟨3, ![A, B, C]⟩ ⟨4, ![E1, E2, E3, 3]⟩ ⟨3, ![E1, E2, E3]⟩) (hd : d = pointDims A B C E1 E2 E3 wf)
    (x : (⟨3, ![A, B, C]⟩ : Shape).Idx → α) (idx : IVec ⟨4, ![E1, E2, E3, 3]⟩ w)
    (e1 : Fin E1) (e2 : Fin E2) (e3 : Fin E3) :
    Host.gather d x idx (ix3 e1 e2 e3)
      = x (ix3 ⟨min (idx (ix4 e1 e2 e3 (0 : Fin 3))).toInt.toNat (A - 1), by omega⟩
               ⟨min (idx (ix4 e1 e2 e3 (1 : Fin 3))).toInt.toNat (B - 1), by omega⟩
               ⟨min (idx (ix4 e1 e2 e3 (2 : Fin 3))).toInt.toNat (C - 1), by omega⟩) := by
  subst hd
  exact gather_point_apply hA hB hC wf x idx e1 e2 e3

/-! ## Three planes laid side by side along a new last axis

Each plane `[E1, E2, E3, 1]` is one wide along axis 3, so in the joined array `[E1, E2, E3, 3]` the coordinate `k` on
that axis falls in plane `k`, at its only place `0`; the other three coordinates are carried over unchanged. -/

/-- The joined array at `(e1, e2, e3, 0)` is the first plane at `(e1, e2, e3, 0)`. -/
theorem concat3_apply_0 {E1 E2 E3 : Nat} (u0 u1 u2 : (⟨4, ![E1, E2, E3, 1]⟩ : Shape).Idx → α)
    (h : Shape.Concatenates [⟨4, ![E1, E2, E3, 1]⟩, ⟨4, ![E1, E2, E3, 1]⟩, ⟨4, ![E1, E2, E3, 1]⟩] ⟨4, ![E1, E2, E3, 3]⟩ 3)
    (e1 : Fin E1) (e2 : Fin E2) (e3 : Fin E3) :
    concatenate ⟨4, ![E1, E2, E3, 3]⟩ 3 [⟨⟨4, ![E1, E2, E3, 1]⟩, u0⟩, ⟨⟨4, ![E1, E2, E3, 1]⟩, u1⟩, ⟨⟨4, ![E1, E2, E3, 1]⟩, u2⟩] h
        (ix4 e1 e2 e3 (0 : Fin 3))
      = u0 (ix4 e1 e2 e3 (0 : Fin 1)) := by
  refine concatenate_apply_piece (t := ⟨4, ![E1, E2, E3, 3]⟩) (3 : Fin 4)
    [⟨⟨4, ![E1, E2, E3, 1]⟩, u0⟩, ⟨⟨4, ![E1, E2, E3, 1]⟩, u1⟩, ⟨⟨4, ![E1, E2, E3, 1]⟩, u2⟩] h (ix4 e1 e2 e3 (0 : Fin 3))
    0 (show 0 < 3 from by decide) ⟨4, ![E1, E2, E3, 1]⟩ u0 rfl rfl 0 ?_ (ix4 e1 e2 e3 (0 : Fin 1)) ?_ ?_
  · -- the planes before this one are each one wide along the joined axis
    rfl
  · -- off the joined axis the plane's index has the result's coordinates
    intro b hb
    match b, hb with
    | ⟨0, _⟩, _ => rfl
    | ⟨1, _⟩, _ => rfl
    | ⟨2, _⟩, _ => rfl
    | ⟨3, _⟩, hb => exact absurd rfl hb
  · -- on the joined axis: 0 places taken, then place 0 of this plane
    rfl

/-- The joined array at `(e1, e2, e3, 1)` is the second plane at `(e1, e2, e3, 0)`. -/
theorem concat3_apply_1 {E1 E2 E3 : Nat} (u0 u1 u2 : (⟨4, ![E1, E2, E3, 1]⟩ : Shape).Idx → α)
    (h : Shape.Concatenates [⟨4, ![E1, E2, E3, 1]⟩, ⟨4, ![E1, E2, E3, 1]⟩, ⟨4, ![E1, E2, E3, 1]⟩] ⟨4, ![E1, E2, E3, 3]⟩ 3)
    (e1 : Fin E1) (e2 : Fin E2) (e3 : Fin E3) :
    concatenate ⟨4, ![E1, E2, E3, 3]⟩ 3 [⟨⟨4, ![E1, E2, E3, 1]⟩, u0⟩, ⟨⟨4, ![E1, E2, E3, 1]⟩, u1⟩, ⟨⟨4, ![E1, E2, E3, 1]⟩, u2⟩] h
        (ix4 e1 e2 e3 (1 : Fin 3))
      = u1 (ix4 e1 e2 e3 (0 : Fin 1)) := by
  refine concatenate_apply_piece (t := ⟨4, ![E1, E2, E3, 3]⟩) (3 : Fin 4)
    [⟨⟨4, ![E1, E2, E3, 1]⟩, u0⟩, ⟨⟨4, ![E1, E2, E3, 1]⟩, u1⟩, ⟨⟨4, ![E1, E2, E3, 1]⟩, u2⟩] h (ix4 e1 e2 e3 (1 : Fin 3))
    1 (show 1 < 3 from by decide) ⟨4, ![E1, E2, E3, 1]⟩ u1 rfl rfl 1 ?_ (ix4 e1 e2 e3 (0 : Fin 1)) ?_ ?_
  · -- the planes before this one are each one wide along the joined axis
    rfl
  · -- off the joined axis the plane's index has the result's coordinates
    intro b hb
    match b, hb with
    | ⟨0, _⟩, _ => rfl
    | ⟨1, _⟩, _ => rfl
    | ⟨2, _⟩, _ => rfl
    | ⟨3, _⟩, hb => exact absurd rfl hb
  · -- on the joined axis: 1 places taken, then place 0 of this plane
    rfl

/-- The joined array at `(e1, e2, e3, 2)` is the third plane at `(e1, e2, e3, 0)`. -/
theorem concat3_apply_2 {E1 E2 E3 : Nat} (u0 u1 u2 : (⟨4, ![E1, E2, E3, 1]⟩ : Shape).Idx → α)
    (h : Shape.Concatenates [⟨4, ![E1, E2, E3, 1]⟩, ⟨4, ![E1, E2, E3, 1]⟩, ⟨4, ![E1, E2, E3, 1]⟩] ⟨4, ![E1, E2, E3, 3]⟩ 3)
    (e1 : Fin E1) (e2 : Fin E2) (e3 : Fin E3) :
    concatenate ⟨4, ![E1, E2, E3, 3]⟩ 3 [⟨⟨4, ![E1, E2, E3, 1]⟩, u0⟩, ⟨⟨4, ![E1, E2, E3, 1]⟩, u1⟩, ⟨⟨4, ![E1, E2, E3, 1]⟩, u2⟩] h
        (ix4 e1 e2 e3 (2 : Fin 3))
      = u2 (ix4 e1 e2 e3 (0 : Fin 1)) := by
  refine concatenate_apply_piece (t := ⟨4, ![E1, E2, E3, 3]⟩) (3 : Fin 4)
    [⟨⟨4, ![E1, E2, E3, 1]⟩, u0⟩, ⟨⟨4, ![E1, E2, E3, 1]⟩, u1⟩, ⟨⟨4, ![E1, E2, E3, 1]⟩, u2⟩] h (ix4 e1 e2 e3 (2 : Fin 3))
    2 (show 2 < 3 from by decide) ⟨4, ![E1, E2, E3, 1]⟩ u2 rfl rfl 2 ?_ (ix4 e1 e2 e3 (0 : Fin 1)) ?_ ?_
  · -- the planes before this one are each one wide along the joined axis
    rfl
  · -- off the joined axis the plane's index has the result's coordinates
    intro b hb
    match b, hb with
    | ⟨0, _⟩, _ => rfl
    | ⟨1, _⟩, _ => rfl
    | ⟨2, _⟩, _ => rfl
    | ⟨3, _⟩, hb => exact absurd rfl hb
  · -- on the joined axis: 2 places taken, then place 0 of this plane
    rfl

end Cert.PointGather
-- ==== Proof.RefValue.lean ====
/-
  The plain program for the spline layer, read one output entry at a time.

  The program places every sample on the knot grid once per output row: the position `p = (x + 1) / 2 · 31` is
  broadcast over the 256 output rows, its floor is converted to a 32-bit integer and clipped to `[0, 30]` (the lower
  knot `n`), the upper knot is `n + 1`, and the offset is `t = p − n`. The two coefficients `c[o, i, n]` and
  `c[o, i, n + 1]` are fetched by indexing the coefficient array with three integer planes (the row number `o`, the
  feature number `i`, the knot), each first passed through the wrap that adds the extent to a negative index — which
  changes nothing here, every one of them being a small non-negative number. The entry `(b, o)` of the result is the
  sum over the features `i` of `c[o, i, n] · (1 − t) + c[o, i, n + 1] · t`.

  Each stage is read at the index `(b, o, i)` built from its coordinates; the only case distinctions are on axis
  numbers. On a real sample the element is the interpolation `Cert.Spline.term`, and the sum over the features is
  the specification `Cert.Spline.G`.
-/
import proofs.«132766_j15350213116057_2_alg».proof.Proof.ReadP
import proofs.«132766_j15350213116057_2_alg».proof.Proof.Spline
import proofs.«132766_j15350213116057_2_alg».proof.Proof.LibPointGather

noncomputable section

open scoped BigOperators

namespace Cert.RefValue

open Cert.ReferenceIdeal Cert.ReferenceIdeal.Gen Cert.ReferenceIdeal.ReadP Idealize.ShloMosaic Idealize.ShloMosaic.ValueIdx

/-- Two rank-3 indices with equal coordinates are equal. -/
theorem ix3_congr {n0 n1 n2 : Nat} {a a' : Fin n0} {b b' : Fin n1} {c c' : Fin n2}
    (ha : a = a') (hb : b = b') (hc : c = c') : ix3 a b c = ix3 a' b' c' := by
  subst ha hb hc; rfl

/-! ## The per-sample arithmetic at `(b, o, i)` -/

/-- The position stage at `(b, o, i)` is the position of sample `(b, i)`: the broadcast over the output rows forgets `o`. -/
theorem pos_at (x0 : S2048x128.Idx → EReal) (b : Fin 2048) (o : Fin 256) (i : Fin 128) :
    val_main_v7 (F := Ideal) x0 (ix3 b o i) = Cert.Spline.rPos (x0 (ix2 b i)) := by
  rw [val_main_v7_apply, val_main_v6_apply, val_main_v4_apply, val_main_v2_apply, val_main_v0_apply,
    val_main_v1_apply, val_main_v3_apply, val_main_v5_apply, val_main_cst_apply, val_main_cst_0_apply,
    val_main_cst_1_apply]
  have e : idx_main_v0 (idx_main_v7 (ix3 b o i)) = ix2 b i := by
    funext a; refine Fin.ext ?_
    match a with
    | ⟨0, _⟩ => rfl
    | ⟨1, _⟩ => rfl
  rw [e]
  rfl

/-- The lower knot's word at `(b, o, i)`: floor, conversion, then the integer clip to `[0, 30]`. -/
theorem knot_at (x0 : S2048x128.Idx → EReal) (b : Fin 2048) (o : Fin 256) (i : Fin 128) :
    val_main_v10 (F := Ideal) x0 (ix3 b o i) = Cert.Spline.rId (x0 (ix2 b i)) := by
  rw [val_main_v10_apply, val_main_call0_v4_apply, val_main_call0_v3_apply, val_main_c_2_apply,
    val_main_call0_v2_apply, val_main_call0_v1_apply, val_main_call0_v0_apply, val_main_c_apply,
    val_main_v9_apply, val_main_v8_apply, pos_at]
  rfl

/-- The upper knot's word is the lower knot's plus one. -/
theorem knot_succ_at (x0 : S2048x128.Idx → EReal) (b : Fin 2048) (o : Fin 256) (i : Fin 128) :
    val_main_v12 (F := Ideal) x0 (ix3 b o i) = IntOp.addi (Cert.Spline.rId (x0 (ix2 b i))) 1#32 := by
  rw [val_main_v12_apply, val_main_v11_apply, val_main_c_3_apply, knot_at]

/-- The offset from the lower knot. -/
theorem frac_at (x0 : S2048x128.Idx → EReal) (b : Fin 2048) (o : Fin 256) (i : Fin 128) :
    val_main_v62 (F := Ideal) x0 (ix3 b o i) = Cert.Spline.rFrac (x0 (ix2 b i)) := by
  rw [val_main_v62_apply, val_main_v61_apply, pos_at, knot_at]
  rfl

/-- One minus the offset. -/
theorem one_sub_frac_at (x0 : S2048x128.Idx → EReal) (b : Fin 2048) (o : Fin 256) (i : Fin 128) :
    val_main_v64 (F := Ideal) x0 (ix3 b o i)
      = FloatOps.subf (F := Ideal) (φ := .f32) (FloatOps.ofBits .f32 0x3F800000#32) (Cert.Spline.rFrac (x0 (ix2 b i))) := by
  rw [val_main_v64_apply, val_main_v63_apply, val_main_cst_16_apply, frac_at]

/-! ## The three index planes -/

/-- The wrapped row numbers, before they are broadcast: at `(0, o, 0)` the word of `o`. The wrap adds 256 to a negative
    word; the word of a row number below 256 is not negative. -/
theorem row_word_at (z z' : Fin 1) (o : Fin 256) :
    val_main_v21 (F := Ideal) (ix3 z o z') = BitVec.ofNat 32 o.val := by
  rw [val_main_v21_apply, val_main_v18_apply, val_main_v20_apply, val_main_v17_apply, val_main_v19_apply,
    val_main_c_4_apply, val_main_c_5_apply, val_main_v14_apply, val_main_v13_apply]
  exact Cert.Spline.wrap_id o.val 256#32 (by have := o.isLt; omega)

/-- The same for the second fetch, which wraps the row numbers again. -/
theorem row_word_at' (z z' : Fin 1) (o : Fin 256) :
    val_main_v43 (F := Ideal) (ix3 z o z') = BitVec.ofNat 32 o.val := by
  rw [val_main_v43_apply, val_main_v40_apply, val_main_v42_apply, val_main_v39_apply, val_main_v41_apply,
    val_main_c_10_apply, val_main_c_11_apply, val_main_v14_apply, val_main_v13_apply]
  exact Cert.Spline.wrap_id o.val 256#32 (by have := o.isLt; omega)

/-- The wrapped feature numbers: at `(0, 0, i)` the word of `i`. -/
theorem feat_word_at (z z' : Fin 1) (i : Fin 128) :
    val_main_v26 (F := Ideal) (ix3 z z' i) = BitVec.ofNat 32 i.val := by
  rw [val_main_v26_apply, val_main_v23_apply, val_main_v25_apply, val_main_v22_apply, val_main_v24_apply,
    val_main_c_6_apply, val_main_c_7_apply, val_main_v16_apply, val_main_v15_apply]
  exact Cert.Spline.wrap_id i.val 128#32 (by have := i.isLt; omega)

/-- The same for the second fetch. -/
theorem feat_word_at' (z z' : Fin 1) (i : Fin 128) :
    val_main_v48 (F := Ideal) (ix3 z z' i) = BitVec.ofNat 32 i.val := by
  rw [val_main_v48_apply, val_main_v45_apply, val_main_v47_apply, val_main_v44_apply, val_main_v46_apply,
    val_main_c_12_apply, val_main_c_13_apply, val_main_v16_apply, val_main_v15_apply]
  exact Cert.Spline.wrap_id i.val 128#32 (by have := i.isLt; omega)

/-- Plane 0 of the first fetch at `(b, o, i, 0)`: the word of the row number `o`. -/
theorem plane0_at (b : Fin 2048) (o : Fin 256) (i : Fin 128) :
    val_main_v34 (F := Ideal) (ix4 b o i (0 : Fin 1)) = BitVec.ofNat 32 o.val := by
  rw [val_main_v34_apply, val_main_v32_apply]
  have e : idx_main_v32 (idx_main_v34 (ix4 b o i (0 : Fin 1))) = ix3 (0 : Fin 1) o (0 : Fin 1) := by
    funext a; refine Fin.ext ?_
    match a with
    | ⟨0, _⟩ => rfl
    | ⟨1, _⟩ => rfl
    | ⟨2, _⟩ => rfl
  rw [e, row_word_at]

/-- Plane 0 of the second fetch. -/
theorem plane0_at' (b : Fin 2048) (o : Fin 256) (i : Fin 128) :
    val_main_v56 (F := Ideal) (ix4 b o i (0 : Fin 1)) = BitVec.ofNat 32 o.val := by
  rw [val_main_v56_apply, val_main_v54_apply]
  have e : idx_main_v54 (idx_main_v56 (ix4 b o i (0 : Fin 1))) = ix3 (0 : Fin 1) o (0 : Fin 1) := by
    funext a; refine Fin.ext ?_
    match a with
    | ⟨0, _⟩ => rfl
    | ⟨1, _⟩ => rfl
    | ⟨2, _⟩ => rfl
  rw [e, row_word_at']

/-- Plane 1 of the first fetch at `(b, o, i, 0)`: the word of the feature number `i`. -/
theorem plane1_at (b : Fin 2048) (o : Fin 256) (i : Fin 128) :
    val_main_v35 (F := Ideal) (ix4 b o i (0 : Fin 1)) = BitVec.ofNat 32 i.val := by
  rw [val_main_v35_apply, val_main_v33_apply]
  have e : idx_main_v33 (idx_main_v35 (ix4 b o i (0 : Fin 1))) = ix3 (0 : Fin 1) (0 : Fin 1) i := by
    funext a; refine Fin.ext ?_
    match a with
    | ⟨0, _⟩ => rfl
    | ⟨1, _⟩ => rfl
    | ⟨2, _⟩ => rfl
  rw [e, feat_word_at]

/-- Plane 1 of the second fetch. -/
theorem plane1_at' (b : Fin 2048) (o : Fin 256) (i : Fin 128) :
    val_main_v57 (F := Ideal) (ix4 b o i (0 : Fin 1)) = BitVec.ofNat 32 i.val := by
  rw [val_main_v57_apply, val_main_v55_apply]
  have e : idx_main_v55 (idx_main_v57 (ix4 b o i (0 : Fin 1))) = ix3 (0 : Fin 1) (0 : Fin 1) i := by
    funext a; refine Fin.ext ?_
    match a with
    | ⟨0, _⟩ => rfl
    | ⟨1, _⟩ => rfl
    | ⟨2, _⟩ => rfl
  rw [e, feat_word_at']

/-- Plane 2 of the first fetch at `(b, o, i, 0)`, on a real sample: the word of the lower knot. The wrap adds 32 to a
    negative word; the knot is at most 30. -/
theorem plane2_at (x0 : S2048x128.Idx → EReal) (b : Fin 2048) (o : Fin 256) (i : Fin 128) (X : ℝ)
    (hX : x0 (ix2 b i) = (X : EReal)) :
    val_main_v36 (F := Ideal) x0 (ix4 b o i (0 : Fin 1)) = BitVec.ofNat 32 (Cert.Spline.knot X) := by
  rw [val_main_v36_apply]
  have e : idx_main_v36 (ix4 b o i (0 : Fin 1)) = ix3 b o i := by
    funext a; refine Fin.ext ?_
    match a with
    | ⟨0, _⟩ => rfl
    | ⟨1, _⟩ => rfl
    | ⟨2, _⟩ => rfl
  rw [e, val_main_v31_apply, val_main_v28_apply, val_main_v30_apply, val_main_v27_apply, val_main_v29_apply,
    val_main_c_8_apply, val_main_c_9_apply, knot_at, hX, Cert.Spline.rId_coe]
  exact Cert.Spline.wrap_id (Cert.Spline.knot X) 32#32 (by have := Cert.Spline.knot_le X; omega)

/-- Plane 2 of the second fetch: the word of the upper knot, at most 31. -/
theorem plane2_at' (x0 : S2048x128.Idx → EReal) (b : Fin 2048) (o : Fin 256) (i : Fin 128) (X : ℝ)
    (hX : x0 (ix2 b i) = (X : EReal)) :
    val_main_v58 (F := Ideal) x0 (ix4 b o i (0 : Fin 1)) = BitVec.ofNat 32 (Cert.Spline.knot X + 1) := by
  rw [val_main_v58_apply]
  have e : idx_main_v58 (ix4 b o i (0 : Fin 1)) = ix3 b o i := by
    funext a; refine Fin.ext ?_
    match a with
    | ⟨0, _⟩ => rfl
    | ⟨1, _⟩ => rfl
    | ⟨2, _⟩ => rfl
  rw [e, val_main_v53_apply, val_main_v50_apply, val_main_v52_apply, val_main_v49_apply, val_main_v51_apply,
    val_main_c_14_apply, val_main_c_15_apply, knot_succ_at, hX, Cert.Spline.rId_coe, Cert.Spline.ofNat_add_one]
  exact Cert.Spline.wrap_id (Cert.Spline.knot X + 1) 32#32 (by have := Cert.Spline.knot_le X; omega)

/-! ## The two fetched coefficients -/

/-- The first fetch at `(b, o, i)` on a real sample: the coefficient of row `(o, i)` at the lower knot. Each of the three
    position components is a small non-negative word, so reading it signed gives the number back and the cap into
    the axis does nothing. -/
theorem fetch_lo_at (x0 : S2048x128.Idx → EReal) (x1 : S256x128x32.Idx → EReal)
    (b : Fin 2048) (o : Fin 256) (i : Fin 128) (X : ℝ) (hX : x0 (ix2 b i) = (X : EReal)) :
    val_main_v38 (F := Ideal) x0 x1 (ix3 b o i) = x1 (ix3 o i (Cert.Spline.lo X)) := by
  have h0 : val_main_v37 (F := Ideal) x0 (ix4 b o i (0 : Fin 3)) = val_main_v34 (F := Ideal) (ix4 b o i (0 : Fin 1)) :=
    Cert.PointGather.concat3_apply_0 _ _ _ _ b o i
  have h1 : val_main_v37 (F := Ideal) x0 (ix4 b o i (1 : Fin 3)) = val_main_v35 (F := Ideal) (ix4 b o i (0 : Fin 1)) :=
    Cert.PointGather.concat3_apply_1 _ _ _ _ b o i
  have h2 : val_main_v37 (F := Ideal) x0 (ix4 b o i (2 : Fin 3)) = val_main_v36 (F := Ideal) x0 (ix4 b o i (0 : Fin 1)) :=
    Cert.PointGather.concat3_apply_2 _ _ _ _ b o i
  have hk := Cert.Spline.knot_le X
  refine (Cert.PointGather.gather_point_apply_of_eq (by decide) (by decide) (by decide)
    gather_S256x128x32_S2048x256x128x3_S2048x256x128_n_012_n_n_012_3_111_wf _ rfl x1
    (val_main_v37 (F := Ideal) x0) b o i).trans ?_
  refine congrArg x1 (ix3_congr (Fin.ext ?_) (Fin.ext ?_) (Fin.ext ?_))
  · show min (val_main_v37 (F := Ideal) x0 (ix4 b o i (0 : Fin 3))).toInt.toNat (256 - 1) = o.val
    rw [h0, plane0_at, Cert.Spline.toInt_toNat_ofNat _ (by have := o.isLt; omega)]
    exact Nat.min_eq_left (by have := o.isLt; omega)
  · show min (val_main_v37 (F := Ideal) x0 (ix4 b o i (1 : Fin 3))).toInt.toNat (128 - 1) = i.val
    rw [h1, plane1_at, Cert.Spline.toInt_toNat_ofNat _ (by have := i.isLt; omega)]
    exact Nat.min_eq_left (by have := i.isLt; omega)
  · show min (val_main_v37 (F := Ideal) x0 (ix4 b o i (2 : Fin 3))).toInt.toNat (32 - 1) = Cert.Spline.knot X
    rw [h2, plane2_at x0 b o i X hX, Cert.Spline.toInt_toNat_ofNat _ (by omega)]
    exact Nat.min_eq_left (by omega)

/-- The second fetch: the coefficient at the upper knot. -/
theorem fetch_hi_at (x0 : S2048x128.Idx → EReal) (x1 : S256x128x32.Idx → EReal)
    (b : Fin 2048) (o : Fin 256) (i : Fin 128) (X : ℝ) (hX : x0 (ix2 b i) = (X : EReal)) :
    val_main_v60 (F := Ideal) x0 x1 (ix3 b o i) = x1 (ix3 o i (Cert.Spline.hi X)) := by
  have h0 : val_main_v59 (F := Ideal) x0 (ix4 b o i (0 : Fin 3)) = val_main_v56 (F := Ideal) (ix4 b o i (0 : Fin 1)) :=
    Cert.PointGather.concat3_apply_0 _ _ _ _ b o i
  have h1 : val_main_v59 (F := Ideal) x0 (ix4 b o i (1 : Fin 3)) = val_main_v57 (F := Ideal) (ix4 b o i (0 : Fin 1)) :=
    Cert.PointGather.concat3_apply_1 _ _ _ _ b o i
  have h2 : val_main_v59 (F := Ideal) x0 (ix4 b o i (2 : Fin 3)) = val_main_v58 (F := Ideal) x0 (ix4 b o i (0 : Fin 1)) :=
    Cert.PointGather.concat3_apply_2 _ _ _ _ b o i
  have hk := Cert.Spline.knot_le X
  refine (Cert.PointGather.gather_point_apply_of_eq (by decide) (by decide) (by decide)
    gather_S256x128x32_S2048x256x128x3_S2048x256x128_n_012_n_n_012_3_111_wf _ rfl x1
    (val_main_v59 (F := Ideal) x0) b o i).trans ?_
  refine congrArg x1 (ix3_congr (Fin.ext ?_) (Fin.ext ?_) (Fin.ext ?_))
  · show min (val_main_v59 (F := Ideal) x0 (ix4 b o i (0 : Fin 3))).toInt.toNat (256 - 1) = o.val
    rw [h0, plane0_at', Cert.Spline.toInt_toNat_ofNat _ (by have := o.isLt; omega)]
    exact Nat.min_eq_left (by have := o.isLt; omega)
  · show min (val_main_v59 (F := Ideal) x0 (ix4 b o i (1 : Fin 3))).toInt.toNat (128 - 1) = i.val
    rw [h1, plane1_at', Cert.Spline.toInt_toNat_ofNat _ (by have := i.isLt; omega)]
    exact Nat.min_eq_left (by have := i.isLt; omega)
  · show min (val_main_v59 (F := Ideal) x0 (ix4 b o i (2 : Fin 3))).toInt.toNat (32 - 1) = Cert.Spline.knot X + 1
    rw [h2, plane2_at' x0 b o i X hX, Cert.Spline.toInt_toNat_ofNat _ (by omega)]
    exact Nat.min_eq_left (by omega)

/-! ## One element, and the sum over the features -/

/-- The summand at `(b, o, i)` on a real sample `X = x[b, i]`: row `(o, i)` of the coefficients interpolated at `X`. -/
theorem elem_at (x0 : S2048x128.Idx → EReal) (x1 : S256x128x32.Idx → EReal)
    (b : Fin 2048) (o : Fin 256) (i : Fin 128) (X : ℝ) (hX : x0 (ix2 b i) = (X : EReal)) :
    val_main_v67 (F := Ideal) x0 x1 (ix3 b o i) = Cert.Spline.term X (fun k => x1 (ix3 o i k)) := by
  rw [val_main_v67_apply, val_main_v65_apply, val_main_v66_apply, fetch_lo_at x0 x1 b o i X hX,
    fetch_hi_at x0 x1 b o i X hX, one_sub_frac_at, frac_at, hX, Cert.Spline.one_sub_rFrac_coe,
    Cert.Spline.rFrac_coe]
  exact Cert.Spline.fetched_row X (fun k => x1 (ix3 o i k))

/-- THE PLAIN PROGRAM IS THE LAYER: on real samples its result is `Cert.Spline.G`, entry by entry. -/
theorem ref_value (x0 : (⟨2, ![2048, 128]⟩ : Shape).Idx → EReal) (x1 : (⟨3, ![256, 128, 32]⟩ : Shape).Idx → EReal)
    (hx : ∀ y, ∃ X : ℝ, x0 y = (X : EReal)) :
    Cert.ReferenceIdeal.ReadP.val_main_v68 (F := Ideal) x0 x1 = Cert.Spline.G x0 x1 := by
  funext j
  obtain ⟨b, o, rfl⟩ : ∃ (b : Fin 2048) (o : Fin 256), j = ix2 b o := ⟨j 0, j 1, eq_ix2 j⟩
  rw [val_main_v68_apply, val_main_cst_17_apply, Cert.Spline.G_ix2]
  have hz : (FloatOps.ofBits (F := Ideal) .f32 0x00000000#32 : EReal) = 0 := by
    rw [Ideal.ofBits_def, Cert.Spline.word_zero, EReal.coe_zero]
  rw [hz, zero_add]
  unfold Cert.Spline.entry
  refine Finset.sum_congr rfl fun i _ => ?_
  obtain ⟨X, hX⟩ := hx (ix2 b i)
  have e : idx_main_v68 (ix2 b o) i = ix3 b o i := by
    funext a; refine Fin.ext ?_
    match a with
    | ⟨0, _⟩ => rfl
    | ⟨1, _⟩ => rfl
    | ⟨2, _⟩ => rfl
  rw [e, elem_at x0 x1 b o i X hX, hX, EReal.toReal_coe]

end Cert.RefValue

end
-- ==== Proof.Finite.lean ====
/-
  The precondition read at an element: when the printed finiteness test answers one, every sample is a real number.

  The test takes the absolute value of each element, compares it strictly below the word of +∞, and conjoins the
  answers over each whole array and then the two arrays. An extended real whose absolute value is strictly below +∞
  is neither infinity, so it is a real.
-/
import proofs.«132766_j15350213116057_2_alg».proof.Pre_finite_inputs
import proofs.«132766_j15350213116057_2_alg».proof.Proof.Gen.Pre_finite_inputs
import Idealize.ShloMosaic.PureOps.Ideal
import Idealize.ShloMosaic.Lib.ValueIdx
import Idealize.ShloMosaic.Lib.ReduceAll
import Idealize.ShloMosaic.Lib.Affine

noncomputable section

namespace Cert.Finite

open Idealize.ShloMosaic Idealize.ShloMosaic.ValueIdx Cert.Pre_finite_inputs

instance : Subsingleton S_.Idx := ⟨fun a b => funext fun d => d.elim0⟩

/-- An extended real whose absolute value is strictly below the word of +∞ is a real. -/
theorem real_of_lt (x : EReal)
    (h : FloatOps.cmpf (F := Ideal) (φ := .f32) .olt (FloatOps.hostAbsf (F := Ideal) (φ := .f32) x) (FloatOps.ofBits .f32 0x7F800000#32) = 1#1) :
    ∃ X : ℝ, x = (X : EReal) := by
  have htop : Ideal.ofBits .f32 0x7F800000#32 = ⊤ := by simp [Ideal.ofBits, Ideal.ieee]
  induction x using EReal.rec with
  | bot =>
    exfalso
    revert h
    show Ideal.cmp .olt (max (⊥ : EReal) (-⊥)) (Ideal.ofBits .f32 0x7F800000#32) = 1#1 → False
    rw [htop]
    simp [Ideal.cmp]
  | coe X => exact ⟨X, rfl⟩
  | top =>
    exfalso
    revert h
    show Ideal.cmp .olt (max (⊤ : EReal) (-⊤)) (Ideal.ofBits .f32 0x7F800000#32) = 1#1 → False
    rw [htop]
    simp [Ideal.cmp]

variable [Facts]

/-- Under the precondition every sample is a real. -/
theorem samples_real (x : FVec Ideal S2048x128 .f32) (cc : FVec Ideal S256x128x32 .f32)
    (h : fn (F := Ideal) x cc = fun _ => 1#1) (y : S2048x128.Idx) : ∃ X : ℝ, x y = (X : EReal) := by
  have h0 := congrFun h ix0
  dsimp only [fn] at h0
  obtain ⟨h1, -⟩ := IntOp.andi_eq_one.1 h0
  exact real_of_lt (x y) (Host.reduce_andi_all _ _ _ _ ix0 h1 y)

end Cert.Finite

end
-- ==== Proof.lean ====
/-
  A spline layer computed two ways, equal on the extended reals.

  Both programs take samples `x : [2048, 128]` and knot coefficients `c : [256, 128, 32]` and return
  `out[b, o] = Σ_i ((1 − t) · c[o, i, n] + t · c[o, i, n + 1])`, where for sample `x[b, i]` the position on the grid of
  32 knots is `p = (x + 1) · 31/2`, `n = clip(⌊p⌋, 0, 30)` and `t = p − n` (Proof/Spline.lean).
  The kernel never fetches a coefficient: per block of 512 samples it weighs all 32 coefficients of a row by a vector
  that is `1 − t` at knot `n`, `t` at knot `n + 1` and zero at the others, and takes ONE matrix product of these weights
  `[512, 32 · 128]` with the coefficients transposed and flattened to `[32 · 128, 256]`; summing over the 4096
  columns is summing over knots and features, and the sum over the knots leaves the two interpolation terms
  (Proof/Payload.lean, Proof/KernelValue.lean). The reference fetches `c[o, i, n]` and `c[o, i, n + 1]` with a gather
  and sums over the features (Proof/RefValue.lean). The position is `(x + 1) · 15.5` in one and `(x + 1) / 2 · 31` in the
  other, the floor is clipped before the conversion to an integer in one and after it in the other; on a real sample these
  agree, and the precondition makes every sample a real (Proof/Finite.lean). No float operation was rewritten on the way
  from the kernel to its idealization, so that claim is empty.
-/
import proofs.«132766_j15350213116057_2_alg».proof.Defs
import proofs.«132766_j15350213116057_2_alg».proof.Proof.Gen.Kernel
import proofs.«132766_j15350213116057_2_alg».proof.Proof.Gen.Kernel.Skeleton
import proofs.«132766_j15350213116057_2_alg».proof.Proof.Gen.Kernel.Launch
import proofs.«132766_j15350213116057_2_alg».proof.Proof.Gen.Kernel.Points
import proofs.«132766_j15350213116057_2_alg».proof.Proof.Gen.Kernel.Frame
import proofs.«132766_j15350213116057_2_alg».proof.Proof.Gen.KernelIdeal
import proofs.«132766_j15350213116057_2_alg».proof.Proof.Gen.KernelIdeal.Skeleton
import proofs.«132766_j15350213116057_2_alg».proof.Proof.Gen.KernelIdeal.Launch
import proofs.«132766_j15350213116057_2_alg».proof.Proof.Gen.KernelIdeal.Points
import proofs.«132766_j15350213116057_2_alg».proof.Proof.Gen.KernelIdeal.Frame
import proofs.«132766_j15350213116057_2_alg».proof.Proof.Gen.KernelIdeal.Value
import proofs.«132766_j15350213116057_2_alg».proof.Proof.Gen.ReferenceIdeal
import proofs.«132766_j15350213116057_2_alg».proof.Proof.Gen.Pre_finite_inputs
import proofs.«132766_j15350213116057_2_alg».proof.Proof.RunP
import proofs.«132766_j15350213116057_2_alg».proof.Proof.ReadP
import proofs.«132766_j15350213116057_2_alg».proof.Proof.KernelValue
import proofs.«132766_j15350213116057_2_alg».proof.Proof.RefValue
import proofs.«132766_j15350213116057_2_alg».proof.Proof.Finite
import Idealize.ShloMosaic.Adequacy
import Idealize.ShloMosaic.Init

noncomputable section

namespace Cert.Proof

open Idealize.ShloMosaic Idealize.SL.Sem

/-- The reference run's result term is its last stage. -/
theorem ref_result_eq (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v68 (F := Ideal) m c
      = Cert.ReferenceIdeal.ReadP.val_main_v68 (F := Ideal)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)) := by
  unfold Cert.ReferenceIdeal.ValueP.res_main_v68; rfl

theorem frame_kernel : Cert.frame_Kernel := fun m ρ _ => Cert.Kernel.Gen.frame m ρ
theorem frame_kernel_ideal : Cert.frame_KernelIdeal := fun m ρ _ => Cert.KernelIdeal.Gen.frame m ρ
/-- The reference's run with its result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both runs end at the layer of the argument arrays: the kernel's result array block by block, the reference's
    last stage index by index; the precondition makes every sample a real, and the memories agree on the arguments. -/
theorem algebraic : Cert.algebraic_KernelIdeal_ReferenceIdeal := by
  intro m ρ m' ρ' hpre hagree
  have hx : ∀ c : Dev Cert.KernelIdeal.nD, ∀ y, ∃ X : ℝ,
      (m ((c.tc : Thread Cert.KernelIdeal.nD Cert.KernelIdeal.τ).loc Cert.KernelIdeal.main_arg0) : Cert.KernelIdeal.S2048x128.Idx → EReal) y = (X : EReal) :=
    fun c y => Cert.Finite.samples_real _ _ (hpre c) y
  refine ⟨fun c => Cert.Spline.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelValue.run m ρ hx, ?_⟩
  refine (θ_run Cert.ReferenceIdeal.defs _ _).mono (fun _ h c => ⟨(h c).1.trans ?_, (h c).2⟩)
    (Cert.ReferenceIdeal.ValueP.run (F := Ideal) m' ρ')
  rw [ref_result_eq, (hagree c).1, (hagree c).2]
  exact Cert.RefValue.ref_value _ _ (hx c)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
